-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x1024 : Shape := ⟨2, ![4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x4096 : Shape := ⟨2, ![1024, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S1024 .f32) (main_arg8 : FVec F S1024x4096 .f32) (main_arg9 : FVec F S4096 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S256 .f32) (main_arg5 : FVec F S1024 .f32) (main_arg6 : FVec F S256x1024 .f32) (main_arg7 : FVec F S1024 .f32) (main_arg8 : FVec F S1024x4096 .f32) (main_arg9 : FVec F S4096 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x4096 .f32) (main_arg1 : FVec F S4096x1024 .f32) (main_arg2 : FVec F S1024 .f32) (main_arg3 : FVec F S1024x256 .f32) (main_arg4 : FVec F S256 .f32) (main_arg5 : FVec F S1024 .f32) (main_arg6 : FVec F S256x1024 .f32) (main_arg7 : FVec F S1024 .f32) (main_arg8 : FVec F S1024x4096 .f32) (main_arg9 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_v13 main_v16
-- ==== Kernel.lean ====
abbrev S16384x4096 : Shape := ⟨2, ![16384, 4096]⟩
abbrev S4096x1024 : Shape := ⟨2, ![4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x4096 : Shape := ⟨2, ![1024, 4096]⟩
abbrev S4096 : Shape := ⟨1, ![4096]⟩
abbrev S1x1024 : Shape := ⟨2, ![1, 1024]⟩
abbrev S1x256 : Shape := ⟨2, ![1, 256]⟩
abbrev S1x4096 : Shape := ⟨2, ![1, 4096]⟩
abbrev S8x128 : Shape := ⟨2, ![8, 128]⟩
abbrev S256x4096 : Shape := ⟨2, ![256, 4096]⟩
abbrev S256x256 : Shape := ⟨2, ![256, 256]⟩
abbrev S1x128 : Shape := ⟨2, ![1, 128]⟩
abbrev S128 : Shape := ⟨1, ![128]⟩
abbrev S128x1 : Shape := ⟨2, ![128, 1]⟩
abbrev S256x128x2x1 : Shape := ⟨4, ![256, 128, 2, 1]⟩
abbrev S256x128x1x1 : Shape := ⟨4, ![256, 128, 1, 1]⟩
abbrev S256x128x1 : Shape := ⟨3, ![256, 128, 1]⟩
abbrev S1x128x1 : Shape := ⟨3, ![1, 128, 1]⟩
abbrev S64x2 : Shape := ⟨2, ![64, 2]⟩
abbrev S256x64x2x2 : Shape := ⟨4, ![256, 64, 2, 2]⟩
abbrev S256x64x1x2 : Shape := ⟨4, ![256, 64, 1, 2]⟩
abbrev S256x64x2 : Shape := ⟨3, ![256, 64, 2]⟩
abbrev S1x64x2 : Shape := ⟨3, ![1, 64, 2]⟩
abbrev S32x4 : Shape := ⟨2, ![32, 4]⟩
abbrev S256x32x2x4 : Shape := ⟨4, ![256, 32, 2, 4]⟩
abbrev S256x32x1x4 : Shape := ⟨4, ![256, 32, 1, 4]⟩
abbrev S256x32x4 : Shape := ⟨3, ![256, 32, 4]⟩
abbrev S1x32x4 : Shape := ⟨3, ![1, 32, 4]⟩
abbrev S16x8 : Shape := ⟨2, ![16, 8]⟩
abbrev S256x16x2x8 : Shape := ⟨4, ![256, 16, 2, 8]⟩
abbrev S256x16x1x8 : Shape := ⟨4, ![256, 16, 1, 8]⟩
abbrev S256x16x8 : Shape := ⟨3, ![256, 16, 8]⟩
abbrev S1x16x8 : Shape := ⟨3, ![1, 16, 8]⟩
abbrev S8x16 : Shape := ⟨2, ![8, 16]⟩
abbrev S256x8x2x16 : Shape := ⟨4, ![256, 8, 2, 16]⟩
abbrev S256x8x1x16 : Shape := ⟨4, ![256, 8, 1, 16]⟩
abbrev S256x8x16 : Shape := ⟨3, ![256, 8, 16]⟩
abbrev S1x8x16 : Shape := ⟨3, ![1, 8, 16]⟩
abbrev S4x32 : Shape := ⟨2, ![4, 32]⟩
abbrev S256x4x2x32 : Shape := ⟨4, ![256, 4, 2, 32]⟩
abbrev S256x4x1x32 : Shape := ⟨4, ![256, 4, 1, 32]⟩
abbrev S256x4x32 : Shape := ⟨3, ![256, 4, 32]⟩
abbrev S1x4x32 : Shape := ⟨3, ![1, 4, 32]⟩
abbrev S2x64 : Shape := ⟨2, ![2, 64]⟩
abbrev S256x2x2x64 : Shape := ⟨4, ![256, 2, 2, 64]⟩
abbrev S256x2x1x64 : Shape := ⟨4, ![256, 2, 1, 64]⟩
abbrev S256x2x64 : Shape := ⟨3, ![256, 2, 64]⟩
abbrev S1x2x64 : Shape := ⟨3, ![1, 2, 64]⟩
abbrev S256x1x2x128 : Shape := ⟨4, ![256, 1, 2, 128]⟩
abbrev S256x1x1x128 : Shape := ⟨4, ![256, 1, 1, 128]⟩
abbrev S256x1x128 : Shape := ⟨3, ![256, 1, 128]⟩
abbrev S1x1x128 : Shape := ⟨3, ![1, 1, 128]⟩

abbrev nBuf : Space → Nat
  | .hbm => 23
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1024x4096, .f32⟩
  | .hbm, ⟨9, _⟩ => ⟨S4096, .f32⟩
  | .hbm, ⟨10, _⟩ => ⟨S4096x1024, .bf16⟩
  | .hbm, ⟨11, _⟩ => ⟨S1024x256, .bf16⟩
  | .hbm, ⟨12, _⟩ => ⟨S256x1024, .bf16⟩
  | .hbm, ⟨13, _⟩ => ⟨S1024x4096, .bf16⟩
  | .hbm, ⟨14, _⟩ => ⟨S1x1024, .f32⟩
  | .hbm, ⟨15, _⟩ => ⟨S1x256, .f32⟩
  | .hbm, ⟨16, _⟩ => ⟨S1x1024, .f32⟩
  | .hbm, ⟨17, _⟩ => ⟨S1x4096, .f32⟩
  | .hbm, ⟨18, _⟩ => ⟨S1024, .f32⟩
  | .hbm, ⟨19, _⟩ => ⟨S8x128, .f32⟩
  | .hbm, ⟨20, _⟩ => ⟨S1024, .f32⟩
  | .hbm, ⟨21, _⟩ => ⟨S8x128, .f32⟩
  | .hbm, ⟨22, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S8x128, .f32⟩
  | .local _ .vmem, ⟨7, _⟩ => ⟨S8x128, .f32⟩
  | .local _ .vmem, ⟨8, _⟩ => ⟨S256x1024, .bf16⟩
  | .local _ .vmem, ⟨9, _⟩ => ⟨S1x1024, .f32⟩
  | .local _ .vmem, ⟨10, _⟩ => ⟨S1024x4096, .bf16⟩
  | .local _ .vmem, ⟨11, _⟩ => ⟨S1x4096, .f32⟩
  | .local _ .vmem, ⟨12, _⟩ => ⟨S256x4096, .f32⟩
  | .local _ .vmem, ⟨13, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S1024_S1x1024 : S1024.ShapeCasts S1x1024
  shapeCasts_S256_S1x256 : S256.ShapeCasts S1x256
  shapeCasts_S4096_S1x4096 : S4096.ShapeCasts S1x4096
  shapeCasts_S1024_S8x128 : S1024.ShapeCasts S8x128
  inb_S256x4096_S256x4096_0_0 : ∀ a, (![0, 0] : Fin 2 → Nat) a + S256x4096.size a ≤ S256x4096.size a
  h_S256x4096 : 0 < S256x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S128x1 : S128.ShapeCasts S128x1
  shapeCasts_S256x256_S256x128x2x1 : S256x256.ShapeCasts S256x128x2x1
  slices_S256x128x2x1_o0_0_0_0_S256x128x1x1 : S256x128x2x1.Slices ![0, 0, 0, 0] S256x128x1x1
  shapeCasts_S256x128x1x1_S256x128x1 : S256x128x1x1.ShapeCasts S256x128x1
  slices_S256x128x2x1_o0_0_1_0_S256x128x1x1 : S256x128x2x1.Slices ![0, 0, 1, 0] S256x128x1x1
  shapeCasts_S128x1_S1x128x1 : S128x1.ShapeCasts S1x128x1
  broadcasts_S1x128x1_S256x128x1 : S1x128x1.Broadcasts S256x128x1
  shapeCasts_S256x128x1_S256x128x1x1 : S256x128x1.ShapeCasts S256x128x1x1
  concatenates_S256x128x1x1_S256x128x1x1_S256x128x2x1_d2 : Shape.Concatenates [S256x128x1x1, S256x128x1x1] S256x128x2x1 2
  shapeCasts_S256x128x2x1_S256x256 : S256x128x2x1.ShapeCasts S256x256
  inb_S8x128_S1x128_1_0 : ∀ a, (![1, 0] : Fin 2 → Nat) a + S1x128.size a ≤ S8x128.size a
  shapeCasts_S128_S64x2 : S128.ShapeCasts S64x2
  shapeCasts_S256x256_S256x64x2x2 : S256x256.ShapeCasts S256x64x2x2
  slices_S256x64x2x2_o0_0_0_0_S256x64x1x2 : S256x64x2x2.Slices ![0, 0, 0, 0] S256x64x1x2
  shapeCasts_S256x64x1x2_S256x64x2 : S256x64x1x2.ShapeCasts S256x64x2
  slices_S256x64x2x2_o0_0_1_0_S256x64x1x2 : S256x64x2x2.Slices ![0, 0, 1, 0] S256x64x1x2
  shapeCasts_S64x2_S1x64x2 : S64x2.ShapeCasts S1x64x2
  broadcasts_S1x64x2_S256x64x2 : S1x64x2.Broadcasts S256x64x2
  shapeCasts_S256x64x2_S256x64x1x2 : S256x64x2.ShapeCasts S256x64x1x2
  concatenates_S256x64x1x2_S256x64x1x2_S256x64x2x2_d2 : Shape.Concatenates [S256x64x1x2, S256x64x1x2] S256x64x2x2 2
  shapeCasts_S256x64x2x2_S256x256 : S256x64x2x2.ShapeCasts S256x256
  inb_S8x128_S1x128_2_0 : ∀ a, (![2, 0] : Fin 2 → Nat) a + S1x128.size a ≤ S8x128.size a
  shapeCasts_S128_S32x4 : S128.ShapeCasts S32x4
  shapeCasts_S256x256_S256x32x2x4 : S256x256.ShapeCasts S256x32x2x4
  slices_S256x32x2x4_o0_0_0_0_S256x32x1x4 : S256x32x2x4.Slices ![0, 0, 0, 0] S256x32x1x4
  shapeCasts_S256x32x1x4_S256x32x4 : S256x32x1x4.ShapeCasts S256x32x4
  slices_S256x32x2x4_o0_0_1_0_S256x32x1x4 : S256x32x2x4.Slices ![0, 0, 1, 0] S256x32x1x4
  shapeCasts_S32x4_S1x32x4 : S32x4.ShapeCasts S1x32x4
  broadcasts_S1x32x4_S256x32x4 : S1x32x4.Broadcasts S256x32x4
  shapeCasts_S256x32x4_S256x32x1x4 : S256x32x4.ShapeCasts S256x32x1x4
  concatenates_S256x32x1x4_S256x32x1x4_S256x32x2x4_d2 : Shape.Concatenates [S256x32x1x4, S256x32x1x4] S256x32x2x4 2
  shapeCasts_S256x32x2x4_S256x256 : S256x32x2x4.ShapeCasts S256x256
  inb_S8x128_S1x128_3_0 : ∀ a, (![3, 0] : Fin 2 → Nat) a + S1x128.size a ≤ S8x128.size a
  shapeCasts_S128_S16x8 : S128.ShapeCasts S16x8
  shapeCasts_S256x256_S256x16x2x8 : S256x256.ShapeCasts S256x16x2x8
  slices_S256x16x2x8_o0_0_0_0_S256x16x1x8 : S256x16x2x8.Slices ![0, 0, 0, 0] S256x16x1x8
  shapeCasts_S256x16x1x8_S256x16x8 : S256x16x1x8.ShapeCasts S256x16x8
  slices_S256x16x2x8_o0_0_1_0_S256x16x1x8 : S256x16x2x8.Slices ![0, 0, 1, 0] S256x16x1x8
  shapeCasts_S16x8_S1x16x8 : S16x8.ShapeCasts S1x16x8
  broadcasts_S1x16x8_S256x16x8 : S1x16x8.Broadcasts S256x16x8
  shapeCasts_S256x16x8_S256x16x1x8 : S256x16x8.ShapeCasts S256x16x1x8
  concatenates_S256x16x1x8_S256x16x1x8_S256x16x2x8_d2 : Shape.Concatenates [S256x16x1x8, S256x16x1x8] S256x16x2x8 2
  shapeCasts_S256x16x2x8_S256x256 : S256x16x2x8.ShapeCasts S256x256
  inb_S8x128_S1x128_4_0 : ∀ a, (![4, 0] : Fin 2 → Nat) a + S1x128.size a ≤ S8x128.size a
  shapeCasts_S128_S8x16 : S128.ShapeCasts S8x16
  shapeCasts_S256x256_S256x8x2x16 : S256x256.ShapeCasts S256x8x2x16
  slices_S256x8x2x16_o0_0_0_0_S256x8x1x16 : S256x8x2x16.Slices ![0, 0, 0, 0] S256x8x1x16
  shapeCasts_S256x8x1x16_S256x8x16 : S256x8x1x16.ShapeCasts S256x8x16
  slices_S256x8x2x16_o0_0_1_0_S256x8x1x16 : S256x8x2x16.Slices ![0, 0, 1, 0] S256x8x1x16
  shapeCasts_S8x16_S1x8x16 : S8x16.ShapeCasts S1x8x16
  broadcasts_S1x8x16_S256x8x16 : S1x8x16.Broadcasts S256x8x16
  shapeCasts_S256x8x16_S256x8x1x16 : S256x8x16.ShapeCasts S256x8x1x16
  concatenates_S256x8x1x16_S256x8x1x16_S256x8x2x16_d2 : Shape.Concatenates [S256x8x1x16, S256x8x1x16] S256x8x2x16 2
  shapeCasts_S256x8x2x16_S256x256 : S256x8x2x16.ShapeCasts S256x256
  inb_S8x128_S1x128_5_0 : ∀ a, (![5, 0] : Fin 2 → Nat) a + S1x128.size a ≤ S8x128.size a
  shapeCasts_S128_S4x32 : S128.ShapeCasts S4x32
  shapeCasts_S256x256_S256x4x2x32 : S256x256.ShapeCasts S256x4x2x32
  slices_S256x4x2x32_o0_0_0_0_S256x4x1x32 : S256x4x2x32.Slices ![0, 0, 0, 0] S256x4x1x32
  shapeCasts_S256x4x1x32_S256x4x32 : S256x4x1x32.ShapeCasts S256x4x32
  slices_S256x4x2x32_o0_0_1_0_S256x4x1x32 : S256x4x2x32.Slices ![0, 0, 1, 0] S256x4x1x32
  shapeCasts_S4x32_S1x4x32 : S4x32.ShapeCasts S1x4x32
  broadcasts_S1x4x32_S256x4x32 : S1x4x32.Broadcasts S256x4x32
  shapeCasts_S256x4x32_S256x4x1x32 : S256x4x32.ShapeCasts S256x4x1x32
  concatenates_S256x4x1x32_S256x4x1x32_S256x4x2x32_d2 : Shape.Concatenates [S256x4x1x32, S256x4x1x32] S256x4x2x32 2
  shapeCasts_S256x4x2x32_S256x256 : S256x4x2x32.ShapeCasts S256x256
  inb_S8x128_S1x128_6_0 : ∀ a, (![6, 0] : Fin 2 → Nat) a + S1x128.size a ≤ S8x128.size a
  shapeCasts_S128_S2x64 : S128.ShapeCasts S2x64
  shapeCasts_S256x256_S256x2x2x64 : S256x256.ShapeCasts S256x2x2x64
  slices_S256x2x2x64_o0_0_0_0_S256x2x1x64 : S256x2x2x64.Slices ![0, 0, 0, 0] S256x2x1x64
  shapeCasts_S256x2x1x64_S256x2x64 : S256x2x1x64.ShapeCasts S256x2x64
  slices_S256x2x2x64_o0_0_1_0_S256x2x1x64 : S256x2x2x64.Slices ![0, 0, 1, 0] S256x2x1x64
  shapeCasts_S2x64_S1x2x64 : S2x64.ShapeCasts S1x2x64
  broadcasts_S1x2x64_S256x2x64 : S1x2x64.Broadcasts S256x2x64
  shapeCasts_S256x2x64_S256x2x1x64 : S256x2x64.ShapeCasts S256x2x1x64
  concatenates_S256x2x1x64_S256x2x1x64_S256x2x2x64_d2 : Shape.Concatenates [S256x2x1x64, S256x2x1x64] S256x2x2x64 2
  shapeCasts_S256x2x2x64_S256x256 : S256x2x2x64.ShapeCasts S256x256
  inb_S8x128_S1x128_7_0 : ∀ a, (![7, 0] : Fin 2 → Nat) a + S1x128.size a ≤ S8x128.size a
  shapeCasts_S128_S1x128 : S128.ShapeCasts S1x128
  shapeCasts_S256x256_S256x1x2x128 : S256x256.ShapeCasts S256x1x2x128
  slices_S256x1x2x128_o0_0_0_0_S256x1x1x128 : S256x1x2x128.Slices ![0, 0, 0, 0] S256x1x1x128
  shapeCasts_S256x1x1x128_S256x1x128 : S256x1x1x128.ShapeCasts S256x1x128
  slices_S256x1x2x128_o0_0_1_0_S256x1x1x128 : S256x1x2x128.Slices ![0, 0, 1, 0] S256x1x1x128
  shapeCasts_S1x128_S1x1x128 : S1x128.ShapeCasts S1x1x128
  broadcasts_S1x1x128_S256x1x128 : S1x1x128.Broadcasts S256x1x128
  shapeCasts_S256x1x128_S256x1x1x128 : S256x1x128.ShapeCasts S256x1x1x128
  concatenates_S256x1x1x128_S256x1x1x128_S256x1x2x128_d2 : Shape.Concatenates [S256x1x1x128, S256x1x1x128] S256x1x2x128 2
  shapeCasts_S256x1x2x128_S256x256 : S256x1x2x128.ShapeCasts S256x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x1024_S256x1024_1_0_0_1_n_n_wf : DotDims.WF S256x4096 S4096x1024 S256x1024 [1] [0] [0] [1] [] []
  dot_S256x1024_S1024x256_S256x256_1_0_0_1_n_n_wf : DotDims.WF S256x1024 S1024x256 S256x256 [1] [0] [0] [1] [] []
  dot_S256x256_S256x1024_S256x1024_1_0_0_1_n_n_wf : DotDims.WF S256x256 S256x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .bf16 = 32 ∨ (Rect.block (s := S256x1024) S256x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x4096.size a ≤ S1024x4096.size a
  hwx0_9 : ∀ i : grid0.Coords, EltTy.bits .bf16 = 32 ∨ (Rect.block (s := S1024x4096) S1024x4096.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x4096.size a ≤ S16384x4096.size a
  hwx0_11 : ∀ i : grid0.Coords, EltTy.bits .f32 = 32 ∨ (Rect.block (s := S16384x4096) S256x4096.size (cc0_transform_11 i) (hinb0_11 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S8x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S256x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x1024 : Shape := ⟨2, ![4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x4096 : Shape := ⟨2, ![1024, 4096]⟩
abbrev S4096 : Shape := ⟨1, ![4096]⟩
abbrev S16384x1024 : Shape := ⟨2, ![16384, 1024]⟩
abbrev S1x1024 : Shape := ⟨2, ![1, 1024]⟩
abbrev S_ : Shape := ⟨0, ![]⟩
abbrev S16384x256 : Shape := ⟨2, ![16384, 256]⟩
abbrev S1x256 : Shape := ⟨2, ![1, 256]⟩
abbrev S128 : Shape := ⟨1, ![128]⟩
abbrev S128x1 : Shape := ⟨2, ![128, 1]⟩
abbrev S16384x128x2x1 : Shape := ⟨4, ![16384, 128, 2, 1]⟩
abbrev S16384x128x1x1 : Shape := ⟨4, ![16384, 128, 1, 1]⟩
abbrev S16384x128x1 : Shape := ⟨3, ![16384, 128, 1]⟩
abbrev S1x128x1 : Shape := ⟨3, ![1, 128, 1]⟩
abbrev S64x2 : Shape := ⟨2, ![64, 2]⟩
abbrev S16384x64x2x2 : Shape := ⟨4, ![16384, 64, 2, 2]⟩
abbrev S16384x64x1x2 : Shape := ⟨4, ![16384, 64, 1, 2]⟩
abbrev S16384x64x2 : Shape := ⟨3, ![16384, 64, 2]⟩
abbrev S1x64x2 : Shape := ⟨3, ![1, 64, 2]⟩
abbrev S32x4 : Shape := ⟨2, ![32, 4]⟩
abbrev S16384x32x2x4 : Shape := ⟨4, ![16384, 32, 2, 4]⟩
abbrev S16384x32x1x4 : Shape := ⟨4, ![16384, 32, 1, 4]⟩
abbrev S16384x32x4 : Shape := ⟨3, ![16384, 32, 4]⟩
abbrev S1x32x4 : Shape := ⟨3, ![1, 32, 4]⟩
abbrev S16x8 : Shape := ⟨2, ![16, 8]⟩
abbrev S16384x16x2x8 : Shape := ⟨4, ![16384, 16, 2, 8]⟩
abbrev S16384x16x1x8 : Shape := ⟨4, ![16384, 16, 1, 8]⟩
abbrev S16384x16x8 : Shape := ⟨3, ![16384, 16, 8]⟩
abbrev S1x16x8 : Shape := ⟨3, ![1, 16, 8]⟩
abbrev S8x16 : Shape := ⟨2, ![8, 16]⟩
abbrev S16384x8x2x16 : Shape := ⟨4, ![16384, 8, 2, 16]⟩
abbrev S16384x8x1x16 : Shape := ⟨4, ![16384, 8, 1, 16]⟩
abbrev S16384x8x16 : Shape := ⟨3, ![16384, 8, 16]⟩
abbrev S1x8x16 : Shape := ⟨3, ![1, 8, 16]⟩
abbrev S4x32 : Shape := ⟨2, ![4, 32]⟩
abbrev S16384x4x2x32 : Shape := ⟨4, ![16384, 4, 2, 32]⟩
abbrev S16384x4x1x32 : Shape := ⟨4, ![16384, 4, 1, 32]⟩
abbrev S16384x4x32 : Shape := ⟨3, ![16384, 4, 32]⟩
abbrev S1x4x32 : Shape := ⟨3, ![1, 4, 32]⟩
abbrev S2x64 : Shape := ⟨2, ![2, 64]⟩
abbrev S16384x2x2x64 : Shape := ⟨4, ![16384, 2, 2, 64]⟩
abbrev S16384x2x1x64 : Shape := ⟨4, ![16384, 2, 1, 64]⟩
abbrev S16384x2x64 : Shape := ⟨3, ![16384, 2, 64]⟩
abbrev S1x2x64 : Shape := ⟨3, ![1, 2, 64]⟩
abbrev S1x128 : Shape := ⟨2, ![1, 128]⟩
abbrev S16384x1x2x128 : Shape := ⟨4, ![16384, 1, 2, 128]⟩
abbrev S16384x1x1x128 : Shape := ⟨4, ![16384, 1, 1, 128]⟩
abbrev S16384x1x128 : Shape := ⟨3, ![16384, 1, 128]⟩
abbrev S1x1x128 : Shape := ⟨3, ![1, 1, 128]⟩
abbrev S1x4096 : Shape := ⟨2, ![1, 4096]⟩

abbrev nBuf : Space → Nat
  | .hbm => 251
  | .vmem => 0
  | .smem => 0
  | _ => 0

abbrev hbmTy0_0 (i : Nat) : BufTy := match i % 128 with
  | 0 => ⟨S16384x4096, .f32⟩
  | 1 => ⟨S4096x1024, .f32⟩
  | 2 => ⟨S1024, .f32⟩
  | 3 => ⟨S1024x256, .f32⟩
  | 4 => ⟨S256, .f32⟩
  | 5 => ⟨S1024, .f32⟩
  | 6 => ⟨S256x1024, .f32⟩
  | 7 => ⟨S1024, .f32⟩
  | 8 => ⟨S1024x4096, .f32⟩
  | 9 => ⟨S4096, .f32⟩
  | 10 => ⟨S16384x1024, .f32⟩
  | 11 => ⟨S1x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S16384x256, .f32⟩
  | 18 => ⟨S1x256, .f32⟩
  | 19 => ⟨S16384x256, .f32⟩
  | 20 => ⟨S16384x256, .f32⟩
  | 21 => ⟨S_, .f32⟩
  | 22 => ⟨S16384x256, .f32⟩
  | 23 => ⟨S16384x256, .f32⟩
  | 24 => ⟨S128, .f32⟩
  | 25 => ⟨S128x1, .f32⟩
  | 26 => ⟨S16384x128x2x1, .f32⟩
  | 27 => ⟨S16384x128x1x1, .f32⟩
  | 28 => ⟨S16384x128x1, .f32⟩
  | 29 => ⟨S16384x128x1x1, .f32⟩
  | 30 => ⟨S16384x128x1, .f32⟩
  | 31 => ⟨S128x1, .f32⟩
  | 32 => ⟨S128x1, .f32⟩
  | 33 => ⟨S1x128x1, .f32⟩
  | 34 => ⟨S16384x128x1, .f32⟩
  | 35 => ⟨S16384x128x1, .f32⟩
  | 36 => ⟨S1x128x1, .f32⟩
  | 37 => ⟨S16384x128x1, .f32⟩
  | 38 => ⟨S16384x128x1, .f32⟩
  | 39 => ⟨S16384x128x1, .f32⟩
  | 40 => ⟨S1x128x1, .f32⟩
  | 41 => ⟨S16384x128x1, .f32⟩
  | 42 => ⟨S16384x128x1, .f32⟩
  | 43 => ⟨S1x128x1, .f32⟩
  | 44 => ⟨S16384x128x1, .f32⟩
  | 45 => ⟨S16384x128x1, .f32⟩
  | 46 => ⟨S16384x128x1, .f32⟩
  | 47 => ⟨S16384x128x1x1, .f32⟩
  | 48 => ⟨S16384x128x1x1, .f32⟩
  | 49 => ⟨S16384x128x2x1, .f32⟩
  | 50 => ⟨S16384x256, .f32⟩
  | 51 => ⟨S128, .f32⟩
  | 52 => ⟨S64x2, .f32⟩
  | 53 => ⟨S16384x64x2x2, .f32⟩
  | 54 => ⟨S16384x64x1x2, .f32⟩
  | 55 => ⟨S16384x64x2, .f32⟩
  | 56 => ⟨S16384x64x1x2, .f32⟩
  | 57 => ⟨S16384x64x2, .f32⟩
  | 58 => ⟨S64x2, .f32⟩
  | 59 => ⟨S64x2, .f32⟩
  | 60 => ⟨S1x64x2, .f32⟩
  | 61 => ⟨S16384x64x2, .f32⟩
  | 62 => ⟨S16384x64x2, .f32⟩
  | 63 => ⟨S1x64x2, .f32⟩
  | 64 => ⟨S16384x64x2, .f32⟩
  | 65 => ⟨S16384x64x2, .f32⟩
  | 66 => ⟨S16384x64x2, .f32⟩
  | 67 => ⟨S1x64x2, .f32⟩
  | 68 => ⟨S16384x64x2, .f32⟩
  | 69 => ⟨S16384x64x2, .f32⟩
  | 70 => ⟨S1x64x2, .f32⟩
  | 71 => ⟨S16384x64x2, .f32⟩
  | 72 => ⟨S16384x64x2, .f32⟩
  | 73 => ⟨S16384x64x2, .f32⟩
  | 74 => ⟨S16384x64x1x2, .f32⟩
  | 75 => ⟨S16384x64x1x2, .f32⟩
  | 76 => ⟨S16384x64x2x2, .f32⟩
  | 77 => ⟨S16384x256, .f32⟩
  | 78 => ⟨S128, .f32⟩
  | 79 => ⟨S32x4, .f32⟩
  | 80 => ⟨S16384x32x2x4, .f32⟩
  | 81 => ⟨S16384x32x1x4, .f32⟩
  | 82 => ⟨S16384x32x4, .f32⟩
  | 83 => ⟨S16384x32x1x4, .f32⟩
  | 84 => ⟨S16384x32x4, .f32⟩
  | 85 => ⟨S32x4, .f32⟩
  | 86 => ⟨S32x4, .f32⟩
  | 87 => ⟨S1x32x4, .f32⟩
  | 88 => ⟨S16384x32x4, .f32⟩
  | 89 => ⟨S16384x32x4, .f32⟩
  | 90 => ⟨S1x32x4, .f32⟩
  | 91 => ⟨S16384x32x4, .f32⟩
  | 92 => ⟨S16384x32x4, .f32⟩
  | 93 => ⟨S16384x32x4, .f32⟩
  | 94 => ⟨S1x32x4, .f32⟩
  | 95 => ⟨S16384x32x4, .f32⟩
  | 96 => ⟨S16384x32x4, .f32⟩
  | 97 => ⟨S1x32x4, .f32⟩
  | 98 => ⟨S16384x32x4, .f32⟩
  | 99 => ⟨S16384x32x4, .f32⟩
  | 100 => ⟨S16384x32x4, .f32⟩
  | 101 => ⟨S16384x32x1x4, .f32⟩
  | 102 => ⟨S16384x32x1x4, .f32⟩
  | 103 => ⟨S16384x32x2x4, .f32⟩
  | 104 => ⟨S16384x256, .f32⟩
  | 105 => ⟨S128, .f32⟩
  | 106 => ⟨S16x8, .f32⟩
  | 107 => ⟨S16384x16x2x8, .f32⟩
  | 108 => ⟨S16384x16x1x8, .f32⟩
  | 109 => ⟨S16384x16x8, .f32⟩
  | 110 => ⟨S16384x16x1x8, .f32⟩
  | 111 => ⟨S16384x16x8, .f32⟩
  | 112 => ⟨S16x8, .f32⟩
  | 113 => ⟨S16x8, .f32⟩
  | 114 => ⟨S1x16x8, .f32⟩
  | 115 => ⟨S16384x16x8, .f32⟩
  | 116 => ⟨S16384x16x8, .f32⟩
  | 117 => ⟨S1x16x8, .f32⟩
  | 118 => ⟨S16384x16x8, .f32⟩
  | 119 => ⟨S16384x16x8, .f32⟩
  | 120 => ⟨S16384x16x8, .f32⟩
  | 121 => ⟨S1x16x8, .f32⟩
  | 122 => ⟨S16384x16x8, .f32⟩
  | 123 => ⟨S16384x16x8, .f32⟩
  | 124 => ⟨S1x16x8, .f32⟩
  | 125 => ⟨S16384x16x8, .f32⟩
  | 126 => ⟨S16384x16x8, .f32⟩
  | 127 => ⟨S16384x16x8, .f32⟩
  | _ => ⟨S16384x4096, .f32⟩

abbrev hbmTy0_1 (i : Nat) : BufTy := match i % 128 with
  | 0 => ⟨S16384x16x1x8, .f32⟩
  | 1 => ⟨S16384x16x1x8, .f32⟩
  | 2 => ⟨S16384x16x2x8, .f32⟩
  | 3 => ⟨S16384x256, .f32⟩
  | 4 => ⟨S128, .f32⟩
  | 5 => ⟨S8x16, .f32⟩
  | 6 => ⟨S16384x8x2x16, .f32⟩
  | 7 => ⟨S16384x8x1x16, .f32⟩
  | 8 => ⟨S16384x8x16, .f32⟩
  | 9 => ⟨S16384x8x1x16, .f32⟩
  | 10 => ⟨S16384x8x16, .f32⟩
  | 11 => ⟨S8x16, .f32⟩
  | 12 => ⟨S8x16, .f32⟩
  | 13 => ⟨S1x8x16, .f32⟩
  | 14 => ⟨S16384x8x16, .f32⟩
  | 15 => ⟨S16384x8x16, .f32⟩
  | 16 => ⟨S1x8x16, .f32⟩
  | 17 => ⟨S16384x8x16, .f32⟩
  | 18 => ⟨S16384x8x16, .f32⟩
  | 19 => ⟨S16384x8x16, .f32⟩
  | 20 => ⟨S1x8x16, .f32⟩
  | 21 => ⟨S16384x8x16, .f32⟩
  | 22 => ⟨S16384x8x16, .f32⟩
  | 23 => ⟨S1x8x16, .f32⟩
  | 24 => ⟨S16384x8x16, .f32⟩
  | 25 => ⟨S16384x8x16, .f32⟩
  | 26 => ⟨S16384x8x16, .f32⟩
  | 27 => ⟨S16384x8x1x16, .f32⟩
  | 28 => ⟨S16384x8x1x16, .f32⟩
  | 29 => ⟨S16384x8x2x16, .f32⟩
  | 30 => ⟨S16384x256, .f32⟩
  | 31 => ⟨S128, .f32⟩
  | 32 => ⟨S4x32, .f32⟩
  | 33 => ⟨S16384x4x2x32, .f32⟩
  | 34 => ⟨S16384x4x1x32, .f32⟩
  | 35 => ⟨S16384x4x32, .f32⟩
  | 36 => ⟨S16384x4x1x32, .f32⟩
  | 37 => ⟨S16384x4x32, .f32⟩
  | 38 => ⟨S4x32, .f32⟩
  | 39 => ⟨S4x32, .f32⟩
  | 40 => ⟨S1x4x32, .f32⟩
  | 41 => ⟨S16384x4x32, .f32⟩
  | 42 => ⟨S16384x4x32, .f32⟩
  | 43 => ⟨S1x4x32, .f32⟩
  | 44 => ⟨S16384x4x32, .f32⟩
  | 45 => ⟨S16384x4x32, .f32⟩
  | 46 => ⟨S16384x4x32, .f32⟩
  | 47 => ⟨S1x4x32, .f32⟩
  | 48 => ⟨S16384x4x32, .f32⟩
  | 49 => ⟨S16384x4x32, .f32⟩
  | 50 => ⟨S1x4x32, .f32⟩
  | 51 => ⟨S16384x4x32, .f32⟩
  | 52 => ⟨S16384x4x32, .f32⟩
  | 53 => ⟨S16384x4x32, .f32⟩
  | 54 => ⟨S16384x4x1x32, .f32⟩
  | 55 => ⟨S16384x4x1x32, .f32⟩
  | 56 => ⟨S16384x4x2x32, .f32⟩
  | 57 => ⟨S16384x256, .f32⟩
  | 58 => ⟨S128, .f32⟩
  | 59 => ⟨S2x64, .f32⟩
  | 60 => ⟨S16384x2x2x64, .f32⟩
  | 61 => ⟨S16384x2x1x64, .f32⟩
  | 62 => ⟨S16384x2x64, .f32⟩
  | 63 => ⟨S16384x2x1x64, .f32⟩
  | 64 => ⟨S16384x2x64, .f32⟩
  | 65 => ⟨S2x64, .f32⟩
  | 66 => ⟨S2x64, .f32⟩
  | 67 => ⟨S1x2x64, .f32⟩
  | 68 => ⟨S16384x2x64, .f32⟩
  | 69 => ⟨S16384x2x64, .f32⟩
  | 70 => ⟨S1x2x64, .f32⟩
  | 71 => ⟨S16384x2x64, .f32⟩
  | 72 => ⟨S16384x2x64, .f32⟩
  | 73 => ⟨S16384x2x64, .f32⟩
  | 74 => ⟨S1x2x64, .f32⟩
  | 75 => ⟨S16384x2x64, .f32⟩
  | 76 => ⟨S16384x2x64, .f32⟩
  | 77 => ⟨S1x2x64, .f32⟩
  | 78 => ⟨S16384x2x64, .f32⟩
  | 79 => ⟨S16384x2x64, .f32⟩
  | 80 => ⟨S16384x2x64, .f32⟩
  | 81 => ⟨S16384x2x1x64, .f32⟩
  | 82 => ⟨S16384x2x1x64, .f32⟩
  | 83 => ⟨S16384x2x2x64, .f32⟩
  | 84 => ⟨S16384x256, .f32⟩
  | 85 => ⟨S128, .f32⟩
  | 86 => ⟨S1x128, .f32⟩
  | 87 => ⟨S16384x1x2x128, .f32⟩
  | 88 => ⟨S16384x1x1x128, .f32⟩
  | 89 => ⟨S16384x1x128, .f32⟩
  | 90 => ⟨S16384x1x1x128, .f32⟩
  | 91 => ⟨S16384x1x128, .f32⟩
  | 92 => ⟨S1x128, .f32⟩
  | 93 => ⟨S1x128, .f32⟩
  | 94 => ⟨S1x1x128, .f32⟩
  | 95 => ⟨S16384x1x128, .f32⟩
  | 96 => ⟨S16384x1x128, .f32⟩
  | 97 => ⟨S1x1x128, .f32⟩
  | 98 => ⟨S16384x1x128, .f32⟩
  | 99 => ⟨S16384x1x128, .f32⟩
  | 100 => ⟨S16384x1x128, .f32⟩
  | 101 => ⟨S1x1x128, .f32⟩
  | 102 => ⟨S16384x1x128, .f32⟩
  | 103 => ⟨S16384x1x128, .f32⟩
  | 104 => ⟨S1x1x128, .f32⟩
  | 105 => ⟨S16384x1x128, .f32⟩
  | 106 => ⟨S16384x1x128, .f32⟩
  | 107 => ⟨S16384x1x128, .f32⟩
  | 108 => ⟨S16384x1x1x128, .f32⟩
  | 109 => ⟨S16384x1x1x128, .f32⟩
  | 110 => ⟨S16384x1x2x128, .f32⟩
  | 111 => ⟨S16384x256, .f32⟩
  | 112 => ⟨S16384x1024, .f32⟩
  | 113 => ⟨S1x1024, .f32⟩
  | 114 => ⟨S16384x1024, .f32⟩
  | 115 => ⟨S16384x1024, .f32⟩
  | 116 => ⟨S_, .f32⟩
  | 117 => ⟨S16384x1024, .f32⟩
  | 118 => ⟨S16384x1024, .f32⟩
  | 119 => ⟨S16384x4096, .f32⟩
  | 120 => ⟨S1x4096, .f32⟩
  | 121 => ⟨S16384x4096, .f32⟩
  | 122 => ⟨S16384x4096, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_call2_cst : Ref sig .tc := ⟨.hbm, 244, rfl⟩
abbrev main_call2_v0 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  slices_S1024_S128_0 : S1024.Slices ![0] S128
  shapeCasts_S128_S128x1 : S128.ShapeCasts S128x1
  shapeCasts_S16384x256_S16384x128x2x1 : S16384x256.ShapeCasts S16384x128x2x1
  slices_S16384x128x2x1_S16384x128x1x1_0_0_0_0 : S16384x128x2x1.Slices ![0, 0, 0, 0] S16384x128x1x1
  shapeCasts_S16384x128x1x1_S16384x128x1 : S16384x128x1x1.ShapeCasts S16384x128x1
  slices_S16384x128x2x1_S16384x128x1x1_0_0_1_0 : S16384x128x2x1.Slices ![0, 0, 1, 0] S16384x128x1x1
  bcast_S128x1_S1x128x1_1_2 : S128x1.BroadcastsInDim S1x128x1 (![1, 2] : Fin 2 → Fin S1x128x1.rank)
  bcast_S1x128x1_S16384x128x1_0_1_2 : S1x128x1.BroadcastsInDim S16384x128x1 (![0, 1, 2] : Fin 3 → Fin S16384x128x1.rank)
  bcast_S16384x128x1_S16384x128x1x1_0_1_3 : S16384x128x1.BroadcastsInDim S16384x128x1x1 (![0, 1, 3] : Fin 3 → Fin S16384x128x1x1.rank)
  concatenates_S16384x128x1x1_S16384x128x1x1_S16384x128x2x1_d2 : Shape.Concatenates [S16384x128x1x1, S16384x128x1x1] S16384x128x2x1 2
  shapeCasts_S16384x128x2x1_S16384x256 : S16384x128x2x1.ShapeCasts S16384x256
  slices_S1024_S128_128 : S1024.Slices ![128] S128
  shapeCasts_S128_S64x2 : S128.ShapeCasts S64x2
  shapeCasts_S16384x256_S16384x64x2x2 : S16384x256.ShapeCasts S16384x64x2x2
  slices_S16384x64x2x2_S16384x64x1x2_0_0_0_0 : S16384x64x2x2.Slices ![0, 0, 0, 0] S16384x64x1x2
  shapeCasts_S16384x64x1x2_S16384x64x2 : S16384x64x1x2.ShapeCasts S16384x64x2
  slices_S16384x64x2x2_S16384x64x1x2_0_0_1_0 : S16384x64x2x2.Slices ![0, 0, 1, 0] S16384x64x1x2
  bcast_S64x2_S1x64x2_1_2 : S64x2.BroadcastsInDim S1x64x2 (![1, 2] : Fin 2 → Fin S1x64x2.rank)
  bcast_S1x64x2_S16384x64x2_0_1_2 : S1x64x2.BroadcastsInDim S16384x64x2 (![0, 1, 2] : Fin 3 → Fin S16384x64x2.rank)
  bcast_S16384x64x2_S16384x64x1x2_0_1_3 : S16384x64x2.BroadcastsInDim S16384x64x1x2 (![0, 1, 3] : Fin 3 → Fin S16384x64x1x2.rank)
  concatenates_S16384x64x1x2_S16384x64x1x2_S16384x64x2x2_d2 : Shape.Concatenates [S16384x64x1x2, S16384x64x1x2] S16384x64x2x2 2
  shapeCasts_S16384x64x2x2_S16384x256 : S16384x64x2x2.ShapeCasts S16384x256
  slices_S1024_S128_256 : S1024.Slices ![256] S128
  shapeCasts_S128_S32x4 : S128.ShapeCasts S32x4
  shapeCasts_S16384x256_S16384x32x2x4 : S16384x256.ShapeCasts S16384x32x2x4
  slices_S16384x32x2x4_S16384x32x1x4_0_0_0_0 : S16384x32x2x4.Slices ![0, 0, 0, 0] S16384x32x1x4
  shapeCasts_S16384x32x1x4_S16384x32x4 : S16384x32x1x4.ShapeCasts S16384x32x4
  slices_S16384x32x2x4_S16384x32x1x4_0_0_1_0 : S16384x32x2x4.Slices ![0, 0, 1, 0] S16384x32x1x4
  bcast_S32x4_S1x32x4_1_2 : S32x4.BroadcastsInDim S1x32x4 (![1, 2] : Fin 2 → Fin S1x32x4.rank)
  bcast_S1x32x4_S16384x32x4_0_1_2 : S1x32x4.BroadcastsInDim S16384x32x4 (![0, 1, 2] : Fin 3 → Fin S16384x32x4.rank)
  bcast_S16384x32x4_S16384x32x1x4_0_1_3 : S16384x32x4.BroadcastsInDim S16384x32x1x4 (![0, 1, 3] : Fin 3 → Fin S16384x32x1x4.rank)
  concatenates_S16384x32x1x4_S16384x32x1x4_S16384x32x2x4_d2 : Shape.Concatenates [S16384x32x1x4, S16384x32x1x4] S16384x32x2x4 2
  shapeCasts_S16384x32x2x4_S16384x256 : S16384x32x2x4.ShapeCasts S16384x256
  slices_S1024_S128_384 : S1024.Slices ![384] S128
  shapeCasts_S128_S16x8 : S128.ShapeCasts S16x8
  shapeCasts_S16384x256_S16384x16x2x8 : S16384x256.ShapeCasts S16384x16x2x8
  slices_S16384x16x2x8_S16384x16x1x8_0_0_0_0 : S16384x16x2x8.Slices ![0, 0, 0, 0] S16384x16x1x8
  shapeCasts_S16384x16x1x8_S16384x16x8 : S16384x16x1x8.ShapeCasts S16384x16x8
  slices_S16384x16x2x8_S16384x16x1x8_0_0_1_0 : S16384x16x2x8.Slices ![0, 0, 1, 0] S16384x16x1x8
  bcast_S16x8_S1x16x8_1_2 : S16x8.BroadcastsInDim S1x16x8 (![1, 2] : Fin 2 → Fin S1x16x8.rank)
  bcast_S1x16x8_S16384x16x8_0_1_2 : S1x16x8.BroadcastsInDim S16384x16x8 (![0, 1, 2] : Fin 3 → Fin S16384x16x8.rank)
  bcast_S16384x16x8_S16384x16x1x8_0_1_3 : S16384x16x8.BroadcastsInDim S16384x16x1x8 (![0, 1, 3] : Fin 3 → Fin S16384x16x1x8.rank)
  concatenates_S16384x16x1x8_S16384x16x1x8_S16384x16x2x8_d2 : Shape.Concatenates [S16384x16x1x8, S16384x16x1x8] S16384x16x2x8 2
  shapeCasts_S16384x16x2x8_S16384x256 : S16384x16x2x8.ShapeCasts S16384x256
  slices_S1024_S128_512 : S1024.Slices ![512] S128
  shapeCasts_S128_S8x16 : S128.ShapeCasts S8x16
  shapeCasts_S16384x256_S16384x8x2x16 : S16384x256.ShapeCasts S16384x8x2x16
  slices_S16384x8x2x16_S16384x8x1x16_0_0_0_0 : S16384x8x2x16.Slices ![0, 0, 0, 0] S16384x8x1x16
  shapeCasts_S16384x8x1x16_S16384x8x16 : S16384x8x1x16.ShapeCasts S16384x8x16
  slices_S16384x8x2x16_S16384x8x1x16_0_0_1_0 : S16384x8x2x16.Slices ![0, 0, 1, 0] S16384x8x1x16
  bcast_S8x16_S1x8x16_1_2 : S8x16.BroadcastsInDim S1x8x16 (![1, 2] : Fin 2 → Fin S1x8x16.rank)
  bcast_S1x8x16_S16384x8x16_0_1_2 : S1x8x16.BroadcastsInDim S16384x8x16 (![0, 1, 2] : Fin 3 → Fin S16384x8x16.rank)
  bcast_S16384x8x16_S16384x8x1x16_0_1_3 : S16384x8x16.BroadcastsInDim S16384x8x1x16 (![0, 1, 3] : Fin 3 → Fin S16384x8x1x16.rank)
  concatenates_S16384x8x1x16_S16384x8x1x16_S16384x8x2x16_d2 : Shape.Concatenates [S16384x8x1x16, S16384x8x1x16] S16384x8x2x16 2
  shapeCasts_S16384x8x2x16_S16384x256 : S16384x8x2x16.ShapeCasts S16384x256
  slices_S1024_S128_640 : S1024.Slices ![640] S128
  shapeCasts_S128_S4x32 : S128.ShapeCasts S4x32
  shapeCasts_S16384x256_S16384x4x2x32 : S16384x256.ShapeCasts S16384x4x2x32
  slices_S16384x4x2x32_S16384x4x1x32_0_0_0_0 : S16384x4x2x32.Slices ![0, 0, 0, 0] S16384x4x1x32
  shapeCasts_S16384x4x1x32_S16384x4x32 : S16384x4x1x32.ShapeCasts S16384x4x32
  slices_S16384x4x2x32_S16384x4x1x32_0_0_1_0 : S16384x4x2x32.Slices ![0, 0, 1, 0] S16384x4x1x32
  bcast_S4x32_S1x4x32_1_2 : S4x32.BroadcastsInDim S1x4x32 (![1, 2] : Fin 2 → Fin S1x4x32.rank)
  bcast_S1x4x32_S16384x4x32_0_1_2 : S1x4x32.BroadcastsInDim S16384x4x32 (![0, 1, 2] : Fin 3 → Fin S16384x4x32.rank)
  bcast_S16384x4x32_S16384x4x1x32_0_1_3 : S16384x4x32.BroadcastsInDim S16384x4x1x32 (![0, 1, 3] : Fin 3 → Fin S16384x4x1x32.rank)
  concatenates_S16384x4x1x32_S16384x4x1x32_S16384x4x2x32_d2 : Shape.Concatenates [S16384x4x1x32, S16384x4x1x32] S16384x4x2x32 2
  shapeCasts_S16384x4x2x32_S16384x256 : S16384x4x2x32.ShapeCasts S16384x256
  slices_S1024_S128_768 : S1024.Slices ![768] S128
  shapeCasts_S128_S2x64 : S128.ShapeCasts S2x64
  shapeCasts_S16384x256_S16384x2x2x64 : S16384x256.ShapeCasts S16384x2x2x64
  slices_S16384x2x2x64_S16384x2x1x64_0_0_0_0 : S16384x2x2x64.Slices ![0, 0, 0, 0] S16384x2x1x64
  shapeCasts_S16384x2x1x64_S16384x2x64 : S16384x2x1x64.ShapeCasts S16384x2x64
  slices_S16384x2x2x64_S16384x2x1x64_0_0_1_0 : S16384x2x2x64.Slices ![0, 0, 1, 0] S16384x2x1x64
  bcast_S2x64_S1x2x64_1_2 : S2x64.BroadcastsInDim S1x2x64 (![1, 2] : Fin 2 → Fin S1x2x64.rank)
  bcast_S1x2x64_S16384x2x64_0_1_2 : S1x2x64.BroadcastsInDim S16384x2x64 (![0, 1, 2] : Fin 3 → Fin S16384x2x64.rank)
  bcast_S16384x2x64_S16384x2x1x64_0_1_3 : S16384x2x64.BroadcastsInDim S16384x2x1x64 (![0, 1, 3] : Fin 3 → Fin S16384x2x1x64.rank)
  concatenates_S16384x2x1x64_S16384x2x1x64_S16384x2x2x64_d2 : Shape.Concatenates [S16384x2x1x64, S16384x2x1x64] S16384x2x2x64 2
  shapeCasts_S16384x2x2x64_S16384x256 : S16384x2x2x64.ShapeCasts S16384x256
  slices_S1024_S128_896 : S1024.Slices ![896] S128
  shapeCasts_S128_S1x128 : S128.ShapeCasts S1x128
  shapeCasts_S16384x256_S16384x1x2x128 : S16384x256.ShapeCasts S16384x1x2x128
  slices_S16384x1x2x128_S16384x1x1x128_0_0_0_0 : S16384x1x2x128.Slices ![0, 0, 0, 0] S16384x1x1x128
  shapeCasts_S16384x1x1x128_S16384x1x128 : S16384x1x1x128.ShapeCasts S16384x1x128
  slices_S16384x1x2x128_S16384x1x1x128_0_0_1_0 : S16384x1x2x128.Slices ![0, 0, 1, 0] S16384x1x1x128
  bcast_S1x128_S1x1x128_1_2 : S1x128.BroadcastsInDim S1x1x128 (![1, 2] : Fin 2 → Fin S1x1x128.rank)
  bcast_S1x1x128_S16384x1x128_0_1_2 : S1x1x128.BroadcastsInDim S16384x1x128 (![0, 1, 2] : Fin 3 → Fin S16384x1x128.rank)
  bcast_S16384x1x128_S16384x1x1x128_0_1_3 : S16384x1x128.BroadcastsInDim S16384x1x1x128 (![0, 1, 3] : Fin 3 → Fin S16384x1x1x128.rank)
  concatenates_S16384x1x1x128_S16384x1x1x128_S16384x1x2x128_d2 : Shape.Concatenates [S16384x1x1x128, S16384x1x1x128] S16384x1x2x128 2
  shapeCasts_S16384x1x2x128_S16384x256 : S16384x1x2x128.ShapeCasts S16384x256
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x1024_S16384x1024_1_0_0_1_n_n_wf : DotDims.WF S16384x4096 S4096x1024 S16384x1024 [1] [0] [0] [1] [] []
  dot_S16384x1024_S1024x256_S16384x256_1_0_0_1_n_n_wf : DotDims.WF S16384x1024 S1024x256 S16384x256 [1] [0] [0] [1] [] []
  dot_S16384x256_S256x1024_S16384x1024_1_0_0_1_n_n_wf : DotDims.WF S16384x256 S256x1024 S16384x1024 [1] [0] [0] [1] [] []
  dot_S16384x1024_S1024x4096_S16384x4096_1_0_0_1_n_n_wf : DotDims.WF S16384x1024 S1024x4096 S16384x4096 [1] [0] [0] [1] [] []

variable [Facts₀]

def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.KernelBlocks.lean ====
/- The kernel's input blocks as functions of the ARGUMENT arrays. The pallas_call's window 0 is the argument `x` in row
   blocks of 256 rows; its windows 1 … 10 are resident (block = the whole array, block index (0, 0) at every point) over
   arrays the host wrote before the region: the four weights converted to bf16 (the identity on extended reals), the four
   biases reshaped [n] → [1, n], and the cosine / sine of the angle table reshaped [1024] → [8, 128]. Written here: the
   windows' index maps decided over the grid (`in_index`), each host-written array as the host operations' term
   (`V_w0` … `V_sin`), and each block read at an index (`xblk_apply` … `b3blk_apply`). -/
import proofs.«166147_j45853070852455_1_alg».proof.Proof.Gen.KernelIdeal.Value
import Idealize.ShloMosaic.Lib.Pipeline.Value
import Idealize.ShloMosaic.Lib.ValueIdx

noncomputable section

namespace Cert.KernelIdeal.Launch

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The index maps -/

/-- The input windows' index maps, decided over the grid: window 0 is at row block `t`, every other window at block (0, 0). -/
theorem in_index : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-! ## The arrays the host wrote before the region -/

/-- The host's conversion of `main_arg1` to bf16. -/
theorem V_w0 (c : Dev nD) : @Eq (FVec Ideal S4096x1024 .bf16) (V m c main_v0) (truncf (F := Ideal) .bf16 (m ((c : Thread nD τ).loc main_arg1) : FVec Ideal S4096x1024 .f32) bitsLt_bf16_f32) := by
  dsimp only [Gen.V, Gen.hostOps0]; after_results

/-- The host's conversion of `main_arg3` to bf16. -/
theorem V_w1 (c : Dev nD) : @Eq (FVec Ideal S1024x256 .bf16) (V m c main_v1) (truncf (F := Ideal) .bf16 (m ((c : Thread nD τ).loc main_arg3) : FVec Ideal S1024x256 .f32) bitsLt_bf16_f32) := by
  dsimp only [Gen.V, Gen.hostOps0]; after_results

/-- The host's conversion of `main_arg6` to bf16. -/
theorem V_w2 (c : Dev nD) : @Eq (FVec Ideal S256x1024 .bf16) (V m c main_v2) (truncf (F := Ideal) .bf16 (m ((c : Thread nD τ).loc main_arg6) : FVec Ideal S256x1024 .f32) bitsLt_bf16_f32) := by
  dsimp only [Gen.V, Gen.hostOps0]; after_results

/-- The host's conversion of `main_arg8` to bf16. -/
theorem V_w3 (c : Dev nD) : @Eq (FVec Ideal S1024x4096 .bf16) (V m c main_v3) (truncf (F := Ideal) .bf16 (m ((c : Thread nD τ).loc main_arg8) : FVec Ideal S1024x4096 .f32) bitsLt_bf16_f32) := by
  dsimp only [Gen.V, Gen.hostOps0]; after_results

/-- The host's reshape of `main_arg2` to one row. -/
theorem V_b0 (c : Dev nD) : (V m c main_v4 : S1x1024.Idx → EReal) = shapeCast S1x1024 (m ((c : Thread nD τ).loc main_arg2) : S1024.Idx → EReal) shapeCasts_S1024_S1x1024 := by
  dsimp only [Gen.V, Gen.hostOps0]; after_results; rfl

/-- The host's reshape of `main_arg4` to one row. -/
theorem V_b1 (c : Dev nD) : (V m c main_v5 : S1x256.Idx → EReal) = shapeCast S1x256 (m ((c : Thread nD τ).loc main_arg4) : S256.Idx → EReal) shapeCasts_S256_S1x256 := by
  dsimp only [Gen.V, Gen.hostOps0]; after_results; rfl

/-- The host's reshape of `main_arg7` to one row. -/
theorem V_b2 (c : Dev nD) : (V m c main_v6 : S1x1024.Idx → EReal) = shapeCast S1x1024 (m ((c : Thread nD τ).loc main_arg7) : S1024.Idx → EReal) shapeCasts_S1024_S1x1024 := by
  dsimp only [Gen.V, Gen.hostOps0]; after_results; rfl

/-- The host's reshape of `main_arg9` to one row. -/
theorem V_b3 (c : Dev nD) : (V m c main_v7 : S1x4096.Idx → EReal) = shapeCast S1x4096 (m ((c : Thread nD τ).loc main_arg9) : S4096.Idx → EReal) shapeCasts_S4096_S1x4096 := by
  dsimp only [Gen.V, Gen.hostOps0]; after_results; rfl

/-- The host's cosine of the angle table, reshaped to eight rows of 128. -/
theorem V_cos (c : Dev nD) : @Eq (FVec Ideal S8x128 .f32) (V m c main_v9) (shapeCast S8x128 (Host.cos (F := Ideal) (m ((c : Thread nD τ).loc main_arg5) : FVec Ideal S1024 .f32)) shapeCasts_S1024_S8x128) := by
  dsimp only [Gen.V, Gen.hostOps0]; after_results; rfl

/-- The host's sine of the angle table, reshaped to eight rows of 128. -/
theorem V_sin (c : Dev nD) : @Eq (FVec Ideal S8x128 .f32) (V m c main_v11) (shapeCast S8x128 (Host.sin (F := Ideal) (m ((c : Thread nD τ).loc main_arg5) : FVec Ideal S1024 .f32)) shapeCasts_S1024_S8x128) := by
  dsimp only [Gen.V, Gen.hostOps0]; after_results; rfl

/-! ## The blocks read at an index -/

/-- Row `r` of the block of `x` at point `t` is row `256 t + r` of the argument. -/
theorem xblk_apply (c : Dev nD) (t : Fin cfg0.N) (r : Fin 256) (k : Fin 4096) (h : 256 * t.val + r.val < 16384) :
    (iblk m c 0 t : Vec Ideal S256x4096 .f32) (ix2 r k) = m ((c : Thread nD τ).loc main_arg0) (ix2 ⟨256 * t.val + r.val, h⟩ k) := by
  have hi := in_index t
  have he : ((cfg0.win 0).blk t).view.emb (ix2 r k) = ix2 (⟨256 * t.val + r.val, h⟩ : Fin 16384) k := by
    funext a
    apply Fin.ext
    match a with
    | ⟨0, _⟩ => show win0_0.index t (0 : Fin 2) * 256 + 1 * r.val = 256 * t.val + r.val; omega
    | ⟨1, _⟩ => show win0_0.index t (1 : Fin 2) * 4096 + 1 * k.val = k.val; omega
  unfold iblk
  rw [View.read_apply]
  show V m c main_arg0 (((cfg0.win 0).blk t).view.emb (ix2 r k)) = _
  rw [he, V_main_arg0]

/-- The resident block of window 1 is `main_arg1` (converted to bf16: the same extended real). -/
theorem w0blk_apply (c : Dev nD) (t : Fin cfg0.N) (k : Fin 4096) (n : Fin 1024) :
    (iblk m c 1 t : Vec Ideal S4096x1024 .bf16) (ix2 k n) = m ((c : Thread nD τ).loc main_arg1) (ix2 k n) := by
  have hi := in_index t
  have he : ((cfg0.win 1).blk t).view.emb (ix2 k n) = ix2 k n := by
    funext a
    apply Fin.ext
    match a with
    | ⟨0, _⟩ => show win0_1.index t (0 : Fin 2) * 4096 + 1 * k.val = k.val; omega
    | ⟨1, _⟩ => show win0_1.index t (1 : Fin 2) * 1024 + 1 * n.val = n.val; omega
  unfold iblk
  rw [View.read_apply]
  show V m c main_v0 (((cfg0.win 1).blk t).view.emb (ix2 k n)) = _
  rw [he]
  exact congrFun (V_w0 m c) (ix2 k n)

/-- The resident block of window 3 is `main_arg3` (converted to bf16: the same extended real). -/
theorem w1blk_apply (c : Dev nD) (t : Fin cfg0.N) (k : Fin 1024) (n : Fin 256) :
    (iblk m c 3 t : Vec Ideal S1024x256 .bf16) (ix2 k n) = m ((c : Thread nD τ).loc main_arg3) (ix2 k n) := by
  have hi := in_index t
  have he : ((cfg0.win 3).blk t).view.emb (ix2 k n) = ix2 k n := by
    funext a
    apply Fin.ext
    match a with
    | ⟨0, _⟩ => show win0_3.index t (0 : Fin 2) * 1024 + 1 * k.val = k.val; omega
    | ⟨1, _⟩ => show win0_3.index t (1 : Fin 2) * 256 + 1 * n.val = n.val; omega
  unfold iblk
  rw [View.read_apply]
  show V m c main_v1 (((cfg0.win 3).blk t).view.emb (ix2 k n)) = _
  rw [he]
  exact congrFun (V_w1 m c) (ix2 k n)

/-- The resident block of window 7 is `main_arg6` (converted to bf16: the same extended real). -/
theorem w2blk_apply (c : Dev nD) (t : Fin cfg0.N) (k : Fin 256) (n : Fin 1024) :
    (iblk m c 7 t : Vec Ideal S256x1024 .bf16) (ix2 k n) = m ((c : Thread nD τ).loc main_arg6) (ix2 k n) := by
  have hi := in_index t
  have he : ((cfg0.win 7).blk t).view.emb (ix2 k n) = ix2 k n := by
    funext a
    apply Fin.ext
    match a with
    | ⟨0, _⟩ => show win0_7.index t (0 : Fin 2) * 256 + 1 * k.val = k.val; omega
    | ⟨1, _⟩ => show win0_7.index t (1 : Fin 2) * 1024 + 1 * n.val = n.val; omega
  unfold iblk
  rw [View.read_apply]
  show V m c main_v2 (((cfg0.win 7).blk t).view.emb (ix2 k n)) = _
  rw [he]
  exact congrFun (V_w2 m c) (ix2 k n)

/-- The resident block of window 9 is `main_arg8` (converted to bf16: the same extended real). -/
theorem w3blk_apply (c : Dev nD) (t : Fin cfg0.N) (k : Fin 1024) (n : Fin 4096) :
    (iblk m c 9 t : Vec Ideal S1024x4096 .bf16) (ix2 k n) = m ((c : Thread nD τ).loc main_arg8) (ix2 k n) := by
  have hi := in_index t
  have he : ((cfg0.win 9).blk t).view.emb (ix2 k n) = ix2 k n := by
    funext a
    apply Fin.ext
    match a with
    | ⟨0, _⟩ => show win0_9.index t (0 : Fin 2) * 1024 + 1 * k.val = k.val; omega
    | ⟨1, _⟩ => show win0_9.index t (1 : Fin 2) * 4096 + 1 * n.val = n.val; omega
  unfold iblk
  rw [View.read_apply]
  show V m c main_v3 (((cfg0.win 9).blk t).view.emb (ix2 k n)) = _
  rw [he]
  exact congrFun (V_w3 m c) (ix2 k n)

/-- The resident block of window 2 is `main_arg2` as one row. -/
theorem b0blk_apply (c : Dev nD) (t : Fin cfg0.N) (n : Fin 1024) :
    (iblk m c 2 t : Vec Ideal S1x1024 .f32) (ix2 (0 : Fin 1) n) = m ((c : Thread nD τ).loc main_arg2) (ix1 n) := by
  have hi := in_index t
  have he : ((cfg0.win 2).blk t).view.emb (ix2 (0 : Fin 1) n) = ix2 (0 : Fin 1) n := by
    funext a
    apply Fin.ext
    match a with
    | ⟨0, _⟩ => show win0_2.index t (0 : Fin 2) * 1 + 1 * (0 : Fin 1).val = (0 : Fin 1).val; omega
    | ⟨1, _⟩ => show win0_2.index t (1 : Fin 2) * 1024 + 1 * n.val = n.val; omega
  unfold iblk
  rw [View.read_apply]
  show V m c main_v4 (((cfg0.win 2).blk t).view.emb (ix2 (0 : Fin 1) n)) = _
  rw [he]
  refine (congrFun (V_b0 m c) (ix2 (0 : Fin 1) n)).trans ?_
  exact shapeCast_apply _ _ (ix2 (0 : Fin 1) n) (ix1 n) (by
    rw [Shape.rowMajor_val_one, Shape.rowMajor_val_two]
    show n.val = (0 : Fin 1).val * 1024 + n.val
    show n.val = 0 * 1024 + n.val
    omega)

/-- The resident block of window 4 is `main_arg4` as one row. -/
theorem b1blk_apply (c : Dev nD) (t : Fin cfg0.N) (n : Fin 256) :
    (iblk m c 4 t : Vec Ideal S1x256 .f32) (ix2 (0 : Fin 1) n) = m ((c : Thread nD τ).loc main_arg4) (ix1 n) := by
  have hi := in_index t
  have he : ((cfg0.win 4).blk t).view.emb (ix2 (0 : Fin 1) n) = ix2 (0 : Fin 1) n := by
    funext a
    apply Fin.ext
    match a with
    | ⟨0, _⟩ => show win0_4.index t (0 : Fin 2) * 1 + 1 * (0 : Fin 1).val = (0 : Fin 1).val; omega
    | ⟨1, _⟩ => show win0_4.index t (1 : Fin 2) * 256 + 1 * n.val = n.val; omega
  unfold iblk
  rw [View.read_apply]
  show V m c main_v5 (((cfg0.win 4).blk t).view.emb (ix2 (0 : Fin 1) n)) = _
  rw [he]
  refine (congrFun (V_b1 m c) (ix2 (0 : Fin 1) n)).trans ?_
  exact shapeCast_apply _ _ (ix2 (0 : Fin 1) n) (ix1 n) (by
    rw [Shape.rowMajor_val_one, Shape.rowMajor_val_two]
    show n.val = (0 : Fin 1).val * 256 + n.val
    show n.val = 0 * 256 + n.val
    omega)

/-- The resident block of window 8 is `main_arg7` as one row. -/
theorem b2blk_apply (c : Dev nD) (t : Fin cfg0.N) (n : Fin 1024) :
    (iblk m c 8 t : Vec Ideal S1x1024 .f32) (ix2 (0 : Fin 1) n) = m ((c : Thread nD τ).loc main_arg7) (ix1 n) := by
  have hi := in_index t
  have he : ((cfg0.win 8).blk t).view.emb (ix2 (0 : Fin 1) n) = ix2 (0 : Fin 1) n := by
    funext a
    apply Fin.ext
    match a with
    | ⟨0, _⟩ => show win0_8.index t (0 : Fin 2) * 1 + 1 * (0 : Fin 1).val = (0 : Fin 1).val; omega
    | ⟨1, _⟩ => show win0_8.index t (1 : Fin 2) * 1024 + 1 * n.val = n.val; omega
  unfold iblk
  rw [View.read_apply]
  show V m c main_v6 (((cfg0.win 8).blk t).view.emb (ix2 (0 : Fin 1) n)) = _
  rw [he]
  refine (congrFun (V_b2 m c) (ix2 (0 : Fin 1) n)).trans ?_
  exact shapeCast_apply _ _ (ix2 (0 : Fin 1) n) (ix1 n) (by
    rw [Shape.rowMajor_val_one, Shape.rowMajor_val_two]
    show n.val = (0 : Fin 1).val * 1024 + n.val
    show n.val = 0 * 1024 + n.val
    omega)

/-- The resident block of window 10 is `main_arg9` as one row. -/
theorem b3blk_apply (c : Dev nD) (t : Fin cfg0.N) (n : Fin 4096) :
    (iblk m c 10 t : Vec Ideal S1x4096 .f32) (ix2 (0 : Fin 1) n) = m ((c : Thread nD τ).loc main_arg9) (ix1 n) := by
  have hi := in_index t
  have he : ((cfg0.win 10).blk t).view.emb (ix2 (0 : Fin 1) n) = ix2 (0 : Fin 1) n := by
    funext a
    apply Fin.ext
    match a with
    | ⟨0, _⟩ => show win0_10.index t (0 : Fin 2) * 1 + 1 * (0 : Fin 1).val = (0 : Fin 1).val; omega
    | ⟨1, _⟩ => show win0_10.index t (1 : Fin 2) * 4096 + 1 * n.val = n.val; omega
  unfold iblk
  rw [View.read_apply]
  show V m c main_v7 (((cfg0.win 10).blk t).view.emb (ix2 (0 : Fin 1) n)) = _
  rw [he]
  refine (congrFun (V_b3 m c) (ix2 (0 : Fin 1) n)).trans ?_
  exact shapeCast_apply _ _ (ix2 (0 : Fin 1) n) (ix1 n) (by
    rw [Shape.rowMajor_val_one, Shape.rowMajor_val_two]
    show n.val = (0 : Fin 1).val * 4096 + n.val
    show n.val = 0 * 4096 + n.val
    omega)

/-- Row `s` of the resident cosine table is the host's cosine of angles `128 s … 128 s + 127`. -/
theorem cosblk_apply (c : Dev nD) (t : Fin cfg0.N) (s : Fin 8) (j : Fin 128) (h : 128 * s.val + j.val < 1024) :
    (iblk m c 5 t : Vec Ideal S8x128 .f32) (ix2 s j) = FloatOps.hostUnary (F := Ideal) (φ := .f32) .cos (m ((c : Thread nD τ).loc main_arg5) (ix1 ⟨128 * s.val + j.val, h⟩)) := by
  have hi := in_index t
  have he : ((cfg0.win 5).blk t).view.emb (ix2 s j) = ix2 s j := by
    funext a
    apply Fin.ext
    match a with
    | ⟨0, _⟩ => show win0_5.index t (0 : Fin 2) * 8 + 1 * s.val = s.val; omega
    | ⟨1, _⟩ => show win0_5.index t (1 : Fin 2) * 128 + 1 * j.val = j.val; omega
  unfold iblk
  rw [View.read_apply]
  show V m c main_v9 (((cfg0.win 5).blk t).view.emb (ix2 s j)) = _
  rw [he]
  refine (congrFun (V_cos m c) (ix2 s j)).trans ?_
  exact shapeCast_apply _ _ (ix2 s j) (ix1 (⟨128 * s.val + j.val, h⟩ : Fin 1024)) (by
    rw [Shape.rowMajor_val_one, Shape.rowMajor_val_two]
    show 128 * s.val + j.val = s.val * 128 + j.val
    omega)

/-- Row `s` of the resident sine table is the host's sine of angles `128 s … 128 s + 127`. -/
theorem sinblk_apply (c : Dev nD) (t : Fin cfg0.N) (s : Fin 8) (j : Fin 128) (h : 128 * s.val + j.val < 1024) :
    (iblk m c 6 t : Vec Ideal S8x128 .f32) (ix2 s j) = FloatOps.hostUnary (F := Ideal) (φ := .f32) .sin (m ((c : Thread nD τ).loc main_arg5) (ix1 ⟨128 * s.val + j.val, h⟩)) := by
  have hi := in_index t
  have he : ((cfg0.win 6).blk t).view.emb (ix2 s j) = ix2 s j := by
    funext a
    apply Fin.ext
    match a with
    | ⟨0, _⟩ => show win0_6.index t (0 : Fin 2) * 8 + 1 * s.val = s.val; omega
    | ⟨1, _⟩ => show win0_6.index t (1 : Fin 2) * 128 + 1 * j.val = j.val; omega
  unfold iblk
  rw [View.read_apply]
  show V m c main_v11 (((cfg0.win 6).blk t).view.emb (ix2 s j)) = _
  rw [he]
  refine (congrFun (V_sin m c) (ix2 s j)).trans ?_
  exact shapeCast_apply _ _ (ix2 s j) (ix1 (⟨128 * s.val + j.val, h⟩ : Fin 1024)) (by
    rw [Shape.rowMajor_val_one, Shape.rowMajor_val_two]
    show 128 * s.val + j.val = s.val * 128 + j.val
    omega)

end Cert.KernelIdeal.Launch

end
-- ==== Proof.KernelLaunch.lean ====
/- The launch side of the kernel. The pallas_call runs its body at 64 grid points; point `t`
   reads rows `256 t … 256 t + 255` of the argument `x` and the whole of every weight, bias and rotation table, and
   writes rows `256 t … 256 t + 255` of the result. The sibling module KernelBlocks reads
   each input block as a function of the ARGUMENT arrays. Written here: the body's payload as ONE named function `kpay` of the
   eleven input blocks (`out0_11_eq`) and its loads read at an index (`ld_whole_*`, `ld_row*`); and, for ANY function `G`
   of the whole result array whose row block `t` is `kpay` of the blocks at `t` (`hG`), the result array after the run
   is `G` (`flushed_eq`, `mem_blk`, `cover`, `final`, `run`): the 64 row blocks tile the array. -/
import proofs.«166147_j45853070852455_1_alg».proof.Proof.Gen.KernelIdeal.Value
import proofs.«166147_j45853070852455_1_alg».proof.Proof.KernelBlocks
import Idealize.ShloMosaic.Lib.Pipeline.Value
import Idealize.ShloMosaic.Lib.ValueIdx

noncomputable section

namespace Cert.KernelIdeal.Launch

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The payload, named -/

/-- The rank-2 zero offsets, as the constant function. -/
theorem zero_offsets : (![0, 0] : Fin 2 → Nat) = fun _ => 0 := funext fun a => by fin_cases a <;> rfl

/-- What the body stores into the output block, as a function of the eleven input blocks: the skeleton's payloads over
    the loads of the blocks. -/
def kpay (x0 : Vec Ideal S256x4096 .f32) (x1 : Vec Ideal S4096x1024 .bf16) (x2 : Vec Ideal S1x1024 .f32) (x3 : Vec Ideal S1024x256 .bf16) (x4 : Vec Ideal S1x256 .f32) (x5 x6 : Vec Ideal S8x128 .f32) (x7 : Vec Ideal S256x1024 .bf16) (x8 : Vec Ideal S1x1024 .f32) (x9 : Vec Ideal S1024x4096 .bf16) (x10 : Vec Ideal S1x4096 .f32) : FVec Ideal S256x4096 .f32 :=
  k0_pay1 (k0_pay21 (k0_pay19 (k0_pay15 (View.ld x5 r0_9)) (k0_pay16 (View.ld x6 r0_9)) (k0_pay17 (k0_pay9 (View.ld x5 r0_7)) (k0_pay10 (View.ld x6 r0_7)) (k0_pay12 (k0_pay2 (View.ld x5 r0_5)) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4)) (k0_pay7 (View.ld x0 r0_0) (View.ld x1 r0_1) (View.ld x2 r0_2) (View.ld x3 r0_3) (View.ld x4 r0_4) (View.ld x5 r0_5) (View.ld x6 r0_5)) (k0_pay8 (View.ld x6 r0_5)) (View.ld x5 r0_6) (View.ld x6 r0_6)) (k0_pay13 (k0_pay2 (View.ld x5 r0_5)) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4)) (k0_pay7 (View.ld x0 r0_0) (View.ld x1 r0_1) (View.ld x2 r0_2) (View.ld x3 r0_3) (View.ld x4 r0_4) (View.ld x5 r0_5) (View.ld x6 r0_5)) (k0_pay8 (View.ld x6 r0_5)) (View.ld x5 r0_6) (View.ld x6 r0_6)) (k0_pay14 (k0_pay2 (View.ld x5 r0_5)) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4)) (k0_pay7 (View.ld x0 r0_0) (View.ld x1 r0_1) (View.ld x2 r0_2) (View.ld x3 r0_3) (View.ld x4 r0_4) (View.ld x5 r0_5) (View.ld x6 r0_5)) (k0_pay8 (View.ld x6 r0_5)) (View.ld x5 r0_6) (View.ld x6 r0_6) (View.ld x5 r0_7)) (View.ld x5 r0_8) (View.ld x6 r0_8)) (k0_pay18 (k0_pay9 (View.ld x5 r0_7)) (k0_pay10 (View.ld x6 r0_7)) (k0_pay12 (k0_pay2 (View.ld x5 r0_5)) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4)) (k0_pay7 (View.ld x0 r0_0) (View.ld x1 r0_1) (View.ld x2 r0_2) (View.ld x3 r0_3) (View.ld x4 r0_4) (View.ld x5 r0_5) (View.ld x6 r0_5)) (k0_pay8 (View.ld x6 r0_5)) (View.ld x5 r0_6) (View.ld x6 r0_6)) (k0_pay13 (k0_pay2 (View.ld x5 r0_5)) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4)) (k0_pay7 (View.ld x0 r0_0) (View.ld x1 r0_1) (View.ld x2 r0_2) (View.ld x3 r0_3) (View.ld x4 r0_4) (View.ld x5 r0_5) (View.ld x6 r0_5)) (k0_pay8 (View.ld x6 r0_5)) (View.ld x5 r0_6) (View.ld x6 r0_6)) (k0_pay14 (k0_pay2 (View.ld x5 r0_5)) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4)) (k0_pay7 (View.ld x0 r0_0) (View.ld x1 r0_1) (View.ld x2 r0_2) (View.ld x3 r0_3) (View.ld x4 r0_4) (View.ld x5 r0_5) (View.ld x6 r0_5)) (k0_pay8 (View.ld x6 r0_5)) (View.ld x5 r0_6) (View.ld x6 r0_6) (View.ld x5 r0_7)) (View.ld x5 r0_8) (View.ld x6 r0_8)) (View.ld x5 r0_10) (View.ld x6 r0_10)) (k0_pay20 (View.ld x5 r0_11)) (View.ld x6 r0_11) (View.ld x5 r0_12) (View.ld x6 r0_12)) (View.ld x7 r0_13) (View.ld x8 r0_2) (View.ld x9 r0_14) (View.ld x10 r0_15)

/-- The output window's staging buffer after the body is that payload: the one store covers the block at zero offsets. -/
theorem out0_11_eq (x0 : Vec Ideal S256x4096 .f32) (x1 : Vec Ideal S4096x1024 .bf16) (x2 : Vec Ideal S1x1024 .f32) (x3 : Vec Ideal S1024x256 .bf16) (x4 : Vec Ideal S1x256 .f32) (x5 x6 : Vec Ideal S8x128 .f32) (x7 : Vec Ideal S256x1024 .bf16) (x8 : Vec Ideal S1x1024 .f32) (x9 : Vec Ideal S1024x4096 .bf16) (x10 : Vec Ideal S1x4096 .f32) :
    out0_11 (F := Ideal) x0 x1 x2 x3 x4 x5 x6 x7 x8 x9 x10 = kpay x0 x1 x2 x3 x4 x5 x6 x7 x8 x9 x10 := by
  unfold out0_11
  rw [View.canon_unit_zero zero_offsets]
  rfl

/-! ## The body's loads read at an index -/

/-- The load through the whole-block rectangle `r0_0` reads the block. -/
theorem ld_whole_0 {e : EltTy} (x : Vec Ideal S256x4096 e) : View.ld x r0_0 = x :=
  View.ld_unit_zero (S := S256x4096) zero_offsets _ x

/-- The load through the whole-block rectangle `r0_1` reads the block. -/
theorem ld_whole_1 {e : EltTy} (x : Vec Ideal S4096x1024 e) : View.ld x r0_1 = x :=
  View.ld_unit_zero (S := S4096x1024) zero_offsets _ x

/-- The load through the whole-block rectangle `r0_2` reads the block. -/
theorem ld_whole_2 {e : EltTy} (x : Vec Ideal S1x1024 e) : View.ld x r0_2 = x :=
  View.ld_unit_zero (S := S1x1024) zero_offsets _ x

/-- The load through the whole-block rectangle `r0_3` reads the block. -/
theorem ld_whole_3 {e : EltTy} (x : Vec Ideal S1024x256 e) : View.ld x r0_3 = x :=
  View.ld_unit_zero (S := S1024x256) zero_offsets _ x

/-- The load through the whole-block rectangle `r0_4` reads the block. -/
theorem ld_whole_4 {e : EltTy} (x : Vec Ideal S1x256 e) : View.ld x r0_4 = x :=
  View.ld_unit_zero (S := S1x256) zero_offsets _ x

/-- The load through the whole-block rectangle `r0_13` reads the block. -/
theorem ld_whole_13 {e : EltTy} (x : Vec Ideal S256x1024 e) : View.ld x r0_13 = x :=
  View.ld_unit_zero (S := S256x1024) zero_offsets _ x

/-- The load through the whole-block rectangle `r0_14` reads the block. -/
theorem ld_whole_14 {e : EltTy} (x : Vec Ideal S1024x4096 e) : View.ld x r0_14 = x :=
  View.ld_unit_zero (S := S1024x4096) zero_offsets _ x

/-- The load through the whole-block rectangle `r0_15` reads the block. -/
theorem ld_whole_15 {e : EltTy} (x : Vec Ideal S1x4096 e) : View.ld x r0_15 = x :=
  View.ld_unit_zero (S := S1x4096) zero_offsets _ x

/-- The load through `r0_5` reads row 0 of an [8, 128] table. -/
theorem ld_row0 (x : Vec Ideal S8x128 .f32) (j : Fin 128) :
    View.ld x r0_5 (ix2 (0 : Fin 1) j) = x (ix2 (⟨0, by omega⟩ : Fin 8) j) := by
  show x (r0_5.idx (ix2 (0 : Fin 1) j)) = _
  refine congrArg x (funext fun a => Fin.ext ?_)
  match a with
  | ⟨0, _⟩ => rfl
  | ⟨1, _⟩ => show 0 + 1 * j.val = j.val; omega

/-- The load through `r0_6` reads row 1 of an [8, 128] table. -/
theorem ld_row1 (x : Vec Ideal S8x128 .f32) (j : Fin 128) :
    View.ld x r0_6 (ix2 (0 : Fin 1) j) = x (ix2 (⟨1, by omega⟩ : Fin 8) j) := by
  show x (r0_6.idx (ix2 (0 : Fin 1) j)) = _
  refine congrArg x (funext fun a => Fin.ext ?_)
  match a with
  | ⟨0, _⟩ => rfl
  | ⟨1, _⟩ => show 0 + 1 * j.val = j.val; omega

/-- The load through `r0_7` reads row 2 of an [8, 128] table. -/
theorem ld_row2 (x : Vec Ideal S8x128 .f32) (j : Fin 128) :
    View.ld x r0_7 (ix2 (0 : Fin 1) j) = x (ix2 (⟨2, by omega⟩ : Fin 8) j) := by
  show x (r0_7.idx (ix2 (0 : Fin 1) j)) = _
  refine congrArg x (funext fun a => Fin.ext ?_)
  match a with
  | ⟨0, _⟩ => rfl
  | ⟨1, _⟩ => show 0 + 1 * j.val = j.val; omega

/-- The load through `r0_8` reads row 3 of an [8, 128] table. -/
theorem ld_row3 (x : Vec Ideal S8x128 .f32) (j : Fin 128) :
    View.ld x r0_8 (ix2 (0 : Fin 1) j) = x (ix2 (⟨3, by omega⟩ : Fin 8) j) := by
  show x (r0_8.idx (ix2 (0 : Fin 1) j)) = _
  refine congrArg x (funext fun a => Fin.ext ?_)
  match a with
  | ⟨0, _⟩ => rfl
  | ⟨1, _⟩ => show 0 + 1 * j.val = j.val; omega

/-- The load through `r0_9` reads row 4 of an [8, 128] table. -/
theorem ld_row4 (x : Vec Ideal S8x128 .f32) (j : Fin 128) :
    View.ld x r0_9 (ix2 (0 : Fin 1) j) = x (ix2 (⟨4, by omega⟩ : Fin 8) j) := by
  show x (r0_9.idx (ix2 (0 : Fin 1) j)) = _
  refine congrArg x (funext fun a => Fin.ext ?_)
  match a with
  | ⟨0, _⟩ => rfl
  | ⟨1, _⟩ => show 0 + 1 * j.val = j.val; omega

/-- The load through `r0_10` reads row 5 of an [8, 128] table. -/
theorem ld_row5 (x : Vec Ideal S8x128 .f32) (j : Fin 128) :
    View.ld x r0_10 (ix2 (0 : Fin 1) j) = x (ix2 (⟨5, by omega⟩ : Fin 8) j) := by
  show x (r0_10.idx (ix2 (0 : Fin 1) j)) = _
  refine congrArg x (funext fun a => Fin.ext ?_)
  match a with
  | ⟨0, _⟩ => rfl
  | ⟨1, _⟩ => show 0 + 1 * j.val = j.val; omega

/-- The load through `r0_11` reads row 6 of an [8, 128] table. -/
theorem ld_row6 (x : Vec Ideal S8x128 .f32) (j : Fin 128) :
    View.ld x r0_11 (ix2 (0 : Fin 1) j) = x (ix2 (⟨6, by omega⟩ : Fin 8) j) := by
  show x (r0_11.idx (ix2 (0 : Fin 1) j)) = _
  refine congrArg x (funext fun a => Fin.ext ?_)
  match a with
  | ⟨0, _⟩ => rfl
  | ⟨1, _⟩ => show 0 + 1 * j.val = j.val; omega

/-- The load through `r0_12` reads row 7 of an [8, 128] table. -/
theorem ld_row7 (x : Vec Ideal S8x128 .f32) (j : Fin 128) :
    View.ld x r0_12 (ix2 (0 : Fin 1) j) = x (ix2 (⟨7, by omega⟩ : Fin 8) j) := by
  show x (r0_12.idx (ix2 (0 : Fin 1) j)) = _
  refine congrArg x (funext fun a => Fin.ext ?_)
  match a with
  | ⟨0, _⟩ => rfl
  | ⟨1, _⟩ => show 0 + 1 * j.val = j.val; omega

/-! ## From blocks to the array -/

/-- The output's index map, decided over the grid: point `t` writes row block `t`, column block `0`. -/
theorem out_index : ∀ t : Fin cfg0.N, win0_11.index t (0 : Fin 2) = t.val ∧ win0_11.index t (1 : Fin 2) = 0 :=
  (by decide +kernel : ∀ t : Fin grid0.N, _)

/-- The grid has 64 points. -/
theorem point_lt (t : Fin cfg0.N) : t.val < 64 := lt_of_lt_of_eq t.isLt N_0

/-- WHAT POINT `t` WRITES BACK is row block `t` of `G`, for any `G` whose row blocks are the payload of the input blocks. -/
theorem flushed_eq (c : Dev nD) (G : FVec Ideal S16384x4096 .f32)
    (hG : ∀ (t : Fin cfg0.N) (r : Fin 256) (j : Fin 4096) (h : 256 * t.val + r.val < 16384),
      kpay (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = G (ix2 ⟨256 * t.val + r.val, h⟩ j))
    (t : Fin cfg0.N) :
    (dats m 0 c).flushed 11 t = ((cfg0.win 11).blk t).view.read (Elt Ideal) G := by
  rw [Value.flushed11, out0_11_eq]
  funext y
  have h0 : (y 0).val < 256 := (y 0).isLt
  have h1 : (y 1).val < 4096 := (y 1).isLt
  obtain ⟨i0, i1⟩ := out_index t
  have ht := point_lt t
  have hrow : 256 * t.val + (y 0).val < 16384 := by omega
  have e1 : win0_11.xinj (grid0.coords t) y = ix2 (⟨(y 0).val, h0⟩ : Fin 256) (⟨(y 1).val, h1⟩ : Fin 4096) := by
    funext a
    match a with
    | ⟨0, _⟩ => rfl
    | ⟨1, _⟩ => rfl
  have e2 : ((cfg0.win 11).blk t).view.emb y = ix2 (⟨256 * t.val + (y 0).val, hrow⟩ : Fin 16384) (⟨(y 1).val, h1⟩ : Fin 4096) := by
    funext a
    apply Fin.ext
    match a with
    | ⟨0, _⟩ => show win0_11.index t (0 : Fin 2) * 256 + 1 * (y 0).val = 256 * t.val + (y 0).val; omega
    | ⟨1, _⟩ => show win0_11.index t (1 : Fin 2) * 4096 + 1 * (y 1).val = (y 1).val; omega
  show kpay (iblk m c 0 t) (iblk m c 1 t) (iblk m c 2 t) (iblk m c 3 t) (iblk m c 4 t) (iblk m c 5 t) (iblk m c 6 t) (iblk m c 7 t) (iblk m c 8 t) (iblk m c 9 t) (iblk m c 10 t) (win0_11.xinj (grid0.coords t) y) = G (((cfg0.win 11).blk t).view.emb y)
  rw [e1, e2]
  exact hG t ⟨(y 0).val, h0⟩ ⟨(y 1).val, h1⟩ hrow

/-- An index of the result array is in point `t`'s block iff each coordinate is in the block's range on its axis. -/
theorem mem_blk (t : Fin cfg0.N) (i : S16384x4096.Idx) :
    i ∈ ((cfg0.win 11).blk t).view.set ↔ ∀ a : Fin 2, win0_11.index t a * S256x4096.size a ≤ (i a).val ∧ (i a).val < win0_11.index t a * S256x4096.size a + S256x4096.size a := by
  show i ∈ ((View.whole main_v12).slice (win0_11.rect t)).set ↔ _
  rw [View.set_slice_whole, Rect.mem_set_unit]
  exact Iff.rfl

/-- Row `i` of the result array is in the block of point `i / 256`: the 64 row blocks tile the array. -/
theorem cover (i : S16384x4096.Idx) :
    ∃ t : Fin cfg0.N, (cfg0.win 11).flush t = true ∧ i ∈ ((cfg0.win 11).blk t).view.set := by
  have hi0 : (i 0).val < 16384 := (i 0).isLt
  have hi1 : (i 1).val < 4096 := (i 1).isLt
  have hq : (i 0).val / 256 < cfg0.N := by rw [show cfg0.N = 64 from N_0]; omega
  refine ⟨⟨(i 0).val / 256, hq⟩, flush0_11 _, ?_⟩
  rw [mem_blk]
  obtain ⟨i0, i1⟩ := out_index ⟨(i 0).val / 256, hq⟩
  intro a
  match a with
  | ⟨0, _⟩ => show win0_11.index ⟨(i 0).val / 256, hq⟩ (0 : Fin 2) * 256 ≤ (i 0).val ∧ (i 0).val < win0_11.index ⟨(i 0).val / 256, hq⟩ (0 : Fin 2) * 256 + 256; rw [i0]; show (i 0).val / 256 * 256 ≤ (i 0).val ∧ (i 0).val < (i 0).val / 256 * 256 + 256; omega
  | ⟨1, _⟩ => show win0_11.index ⟨(i 0).val / 256, hq⟩ (1 : Fin 2) * 4096 ≤ (i 1).val ∧ (i 1).val < win0_11.index ⟨(i 0).val / 256, hq⟩ (1 : Fin 2) * 4096 + 4096; rw [i1]; omega

/-- THE RESULT ARRAY after the run is `G`, for any `G` whose row block `t` is the payload of the input blocks at `t`. -/
theorem final (c : Dev nD) (G : FVec Ideal S16384x4096 .f32)
    (hG : ∀ (t : Fin cfg0.N) (r : Fin 256) (j : Fin 4096) (h : 256 * t.val + r.val < 16384),
      kpay (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = G (ix2 ⟨256 * t.val + r.val, h⟩ j)) :
    (dats m 0 c).arrAt 11 cfg0.N = G :=
  (dats m 0 c).arrAt_eq_of_cover 11 G (fun t _ => flushed_eq m c G hG t) cover

/-- The frame run re-posted: the result array at `G c`, the arguments unchanged. -/
theorem run (G : Dev nD → FVec Ideal S16384x4096 .f32)
    (hG : ∀ (c : Dev nD) (t : Fin cfg0.N) (r : Fin 256) (j : Fin 4096) (h : 256 * t.val + r.val < 16384),
      kpay (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = G c (ix2 ⟨256 * t.val + r.val, h⟩ j)) :
    θ_run (defs (F := Ideal)) (onTc (τ := τ) (main (F := Ideal))) ⟨m, fun _ => 0, ρ⟩ fun r => ∀ c : Dev nD,
      r.2.mem ((c : Thread nD τ).loc main_v12) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c (G c) (hG c)), (h c).2⟩) (Value.run_blocks m ρ)

end Cert.KernelIdeal.Launch

end
-- ==== Proof.RefValue.lean ====
import proofs.«166147_j45853070852455_1_alg».proof.Proof.RefRun
import proofs.«166147_j45853070852455_1_alg».proof.Proof.RefRead
import Idealize.ShloMosaic.Lib.Pipeline.Frame

/-! # The reference program's run, read one operation at a time

The reference `ReferenceIdeal` is a straight line of 241 host operations (`Value.ops`): two dense layers, eight butterfly
stages, two more dense layers. `Read.val_main_vN` names the value each operation writes as a function of @main's
arguments, each by the names of the ones it reads. This module proves that every weakly fair execution of @main ends
with the result buffer `main_v234` at `Read.val_main_v234` of the arguments' launch contents, and with the arguments
unchanged (`run`).

A butterfly stage reads its input twice (its two halves), so the result written out as one term of the arguments
doubles at every stage. The proof therefore never composes it: the line is cut into twelve stretches (`seg`), each
stretch's result is read from ARBITRARY contents `W` that hold the previous stretch's value under its name
(`layer1` … `layer4`, `stage0` … `stage7`), no operation writes an argument (`argK_unwritten`), and the twelve readings
are chained (`after_ops_main_v234`). -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- The join of two arrays along an axis, with the two arrays as plain arguments. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A join of two arrays is `cat2` of them (by definition): under this name each array is an argument of its own. -/
theorem cat2_eq {α : Type} (t : Shape) (a : Fin t.rank) (s₁ s₂ : Shape) (h : Shape.Concatenates [s₁, s₂] t a)
    (x : s₁.Idx → α) (y : s₂.Idx → α) :
    concatenate t a [⟨s₁, x⟩, ⟨s₂, y⟩] h = cat2 t a s₁ s₂ h x y := rfl

/-! ## The stretches

The reference is a straight line of 241 operations: two dense layers, eight butterfly stages of 27 operations each, and
two more dense layers. Each stretch reads the value of the one before it and one or a few arguments, so its result is
read from ANY contents `W` that hold those: the result of the whole line is the twelve readings in a row. -/

/-- The operations from position `a` on, `n` of them. -/
abbrev seg (a n : Nat) : List (HloOp τ sig (Elt F)) := ((ops (F := F)).drop a).take n

set_option maxRecDepth 8192 in
/-- The first layer (a product, a bias and a rectifier), from any contents: the operations 1 to 7. -/
theorem layer1 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F))
    (h0 : W (Proc.devRef .tc main_arg0) = x0) (h1 : W (Proc.devRef .tc main_arg1) = x1) (h2 : W (Proc.devRef .tc main_arg2) = x2) :
    after (seg (F := F) 0 7) W (Proc.devRef .tc main_v4) = val_main_v4 x0 x1 x2 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', h0, h1, h2]
  rfl

set_option maxRecDepth 8192 in
/-- The second layer, from any contents holding the first layer's value: the operations 8 to 14. -/
theorem layer2 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F))
    (hin : W (Proc.devRef .tc main_v4) = val_main_v4 x0 x1 x2) (h3 : W (Proc.devRef .tc main_arg3) = x3) (h4 : W (Proc.devRef .tc main_arg4) = x4) :
    after (seg (F := F) 7 7) W (Proc.devRef .tc main_v9) = val_main_v9 x0 x1 x2 x3 x4 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h3, h4]
  rfl

set_option maxRecDepth 8192 in
/-- Butterfly stage 0 (27 operations: the two halves are split off, rotated by the stage's angles and joined again), from any contents holding the stage's input. -/
theorem stage0 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v9) = val_main_v9 x0 x1 x2 x3 x4) (h5 : W (Proc.devRef .tc main_arg5) = x5) :
    after (seg (F := F) 14 27) W (Proc.devRef .tc main_v36) = val_main_v36 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- Butterfly stage 1 (27 operations: the two halves are split off, rotated by the stage's angles and joined again), from any contents holding the stage's input. -/
theorem stage1 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v36) = val_main_v36 x0 x1 x2 x3 x4 x5) (h5 : W (Proc.devRef .tc main_arg5) = x5) :
    after (seg (F := F) 41 27) W (Proc.devRef .tc main_v63) = val_main_v63 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- Butterfly stage 2 (27 operations: the two halves are split off, rotated by the stage's angles and joined again), from any contents holding the stage's input. -/
theorem stage2 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v63) = val_main_v63 x0 x1 x2 x3 x4 x5) (h5 : W (Proc.devRef .tc main_arg5) = x5) :
    after (seg (F := F) 68 27) W (Proc.devRef .tc main_v90) = val_main_v90 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- Butterfly stage 3 (27 operations: the two halves are split off, rotated by the stage's angles and joined again), from any contents holding the stage's input. -/
theorem stage3 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v90) = val_main_v90 x0 x1 x2 x3 x4 x5) (h5 : W (Proc.devRef .tc main_arg5) = x5) :
    after (seg (F := F) 95 27) W (Proc.devRef .tc main_v117) = val_main_v117 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- Butterfly stage 4 (27 operations: the two halves are split off, rotated by the stage's angles and joined again), from any contents holding the stage's input. -/
theorem stage4 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v117) = val_main_v117 x0 x1 x2 x3 x4 x5) (h5 : W (Proc.devRef .tc main_arg5) = x5) :
    after (seg (F := F) 122 27) W (Proc.devRef .tc main_v144) = val_main_v144 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- Butterfly stage 5 (27 operations: the two halves are split off, rotated by the stage's angles and joined again), from any contents holding the stage's input. -/
theorem stage5 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v144) = val_main_v144 x0 x1 x2 x3 x4 x5) (h5 : W (Proc.devRef .tc main_arg5) = x5) :
    after (seg (F := F) 149 27) W (Proc.devRef .tc main_v171) = val_main_v171 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- Butterfly stage 6 (27 operations: the two halves are split off, rotated by the stage's angles and joined again), from any contents holding the stage's input. -/
theorem stage6 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v171) = val_main_v171 x0 x1 x2 x3 x4 x5) (h5 : W (Proc.devRef .tc main_arg5) = x5) :
    after (seg (F := F) 176 27) W (Proc.devRef .tc main_v198) = val_main_v198 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- Butterfly stage 7 (27 operations: the two halves are split off, rotated by the stage's angles and joined again), from any contents holding the stage's input. -/
theorem stage7 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F))
    (hin : W (Proc.devRef .tc main_v198) = val_main_v198 x0 x1 x2 x3 x4 x5) (h5 : W (Proc.devRef .tc main_arg5) = x5) :
    after (seg (F := F) 203 27) W (Proc.devRef .tc main_v225) = val_main_v225 x0 x1 x2 x3 x4 x5 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h5]
  rfl

set_option maxRecDepth 8192 in
/-- The third layer, from any contents holding the last stage's value: the operations 231 to 237. -/
theorem layer3 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F)) (x6 : (⟨S256x1024, .f32⟩ : BufTy).Contents (Elt F)) (x7 : (⟨S1024, .f32⟩ : BufTy).Contents (Elt F))
    (hin : W (Proc.devRef .tc main_v225) = val_main_v225 x0 x1 x2 x3 x4 x5) (h6 : W (Proc.devRef .tc main_arg6) = x6) (h7 : W (Proc.devRef .tc main_arg7) = x7) :
    after (seg (F := F) 230 7) W (Proc.devRef .tc main_v230) = val_main_v230 x0 x1 x2 x3 x4 x5 x6 x7 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h6, h7]
  rfl

set_option maxRecDepth 8192 in
/-- The output layer, from any contents holding the third layer's value: the last four operations. -/
theorem layer4 (W : Valuation τ sig (Elt F)) (x0 : (⟨S16384x4096, .f32⟩ : BufTy).Contents (Elt F)) (x1 : (⟨S4096x1024, .f32⟩ : BufTy).Contents (Elt F)) (x2 : (⟨S1024, .f32⟩ : BufTy).Contents (Elt F)) (x3 : (⟨S1024x256, .f32⟩ : BufTy).Contents (Elt F)) (x4 : (⟨S256, .f32⟩ : BufTy).Contents (Elt F)) (x5 : (⟨S1024, .f32⟩ : BufTy).Contents (Elt F)) (x6 : (⟨S256x1024, .f32⟩ : BufTy).Contents (Elt F)) (x7 : (⟨S1024, .f32⟩ : BufTy).Contents (Elt F)) (x8 : (⟨S1024x4096, .f32⟩ : BufTy).Contents (Elt F)) (x9 : (⟨S4096, .f32⟩ : BufTy).Contents (Elt F))
    (hin : W (Proc.devRef .tc main_v230) = val_main_v230 x0 x1 x2 x3 x4 x5 x6 x7) (h8 : W (Proc.devRef .tc main_arg8) = x8) (h9 : W (Proc.devRef .tc main_arg9) = x9) :
    after ((ops (F := F)).drop 237) W (Proc.devRef .tc main_v234) = val_main_v234 x0 x1 x2 x3 x4 x5 x6 x7 x8 x9 := by
  simp only [seg, ops, List.drop_succ_cons, List.drop_zero, List.take_succ_cons, List.take_zero]
  simp (disch := decide) only [after_cons, after_nil, cat2_eq,
      nullary_result', unary_result', binary_result', reshape_result',
      nullary_result_ne', unary_result_ne', binary_result_ne', reshape_result_ne', hin, h8, h9]
  rfl

/-! ## The arguments are never written -/

/-- No operation writes the argument buffer `main_arg0`. -/
theorem arg0_unwritten : ∀ op ∈ (ops (F := F)), Proc.devRef (τ := τ) .tc main_arg0 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg1`. -/
theorem arg1_unwritten : ∀ op ∈ (ops (F := F)), Proc.devRef (τ := τ) .tc main_arg1 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg2`. -/
theorem arg2_unwritten : ∀ op ∈ (ops (F := F)), Proc.devRef (τ := τ) .tc main_arg2 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg3`. -/
theorem arg3_unwritten : ∀ op ∈ (ops (F := F)), Proc.devRef (τ := τ) .tc main_arg3 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg4`. -/
theorem arg4_unwritten : ∀ op ∈ (ops (F := F)), Proc.devRef (τ := τ) .tc main_arg4 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg5`. -/
theorem arg5_unwritten : ∀ op ∈ (ops (F := F)), Proc.devRef (τ := τ) .tc main_arg5 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg6`. -/
theorem arg6_unwritten : ∀ op ∈ (ops (F := F)), Proc.devRef (τ := τ) .tc main_arg6 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg7`. -/
theorem arg7_unwritten : ∀ op ∈ (ops (F := F)), Proc.devRef (τ := τ) .tc main_arg7 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg8`. -/
theorem arg8_unwritten : ∀ op ∈ (ops (F := F)), Proc.devRef (τ := τ) .tc main_arg8 ∉ op.writes :=
  List.forall_iff_forall_mem.mp (by
    simp only [ops, List.Forall, nullary_writes, unary_writes, binary_writes, reshape_writes, Finset.mem_singleton]
    repeat' apply And.intro
    all_goals exact devRef_ne_of_ne (by decide))
/-- No operation writes the argument buffer `main_arg9`. -/
theorem arg9_unwritten : ∀ op ∈ (ops (F := F)), Proc.devRef (τ := τ) .tc main_arg9 ∉ op.writes :=
  List.forall_iff_forall_mem.mp (by
    simp only [ops, List.Forall, nullary_writes, unary_writes, binary_writes, reshape_writes, Finset.mem_singleton]
    repeat' apply And.intro
    all_goals exact devRef_ne_of_ne (by decide))

/-- `W` holds, at every buffer that no operation writes, what `V` holds there. -/
def SameArgs (V W : Valuation τ sig (Elt F)) : Prop :=
  ∀ b : DevRef τ sig, (∀ op ∈ (ops (F := F)), b ∉ op.writes) → W b = V b

theorem SameArgs.refl (V : Valuation τ sig (Elt F)) : SameArgs V V := fun _ _ => rfl

/-- A stretch of the line leaves every unwritten buffer as it was. -/
theorem SameArgs.step {V W : Valuation τ sig (Elt F)} (h : SameArgs V W) (a n : Nat) :
    SameArgs V (after (seg (F := F) a n) W) :=
  fun b hb => (after_of_forall_not_mem _ _ fun op hop =>
    hb op (List.mem_of_mem_drop (List.mem_of_mem_take hop))).trans (h b hb)

/-! ## The line is its stretches in a row -/

/-- Running a line is running its first `n` operations, then the rest. -/
theorem after_take_drop (l : List (HloOp τ sig (Elt F))) (n : Nat) (V : Valuation τ sig (Elt F)) :
    after l V = after (l.drop n) (after (l.take n) V) := by
  rw [← after_append, List.take_append_drop]

/-- From position `a`: the next `n` operations, then the line from position `a + n`. -/
theorem after_step (a n b : Nat) (hb : a + n = b) (V : Valuation τ sig (Elt F)) :
    after ((ops (F := F)).drop a) V = after ((ops (F := F)).drop b) (after (seg (F := F) a n) V) := by
  subst hb
  rw [after_take_drop ((ops (F := F)).drop a) n V, List.drop_drop]

theorem after_ops_split (V : Valuation τ sig (Elt F)) :
    after (ops (F := F)) V = after ((ops (F := F)).drop 237) (after (seg 230 7) (after (seg 203 27) (after (seg 176 27) (after (seg 149 27) (after (seg 122 27) (after (seg 95 27) (after (seg 68 27) (after (seg 41 27) (after (seg 14 27) (after (seg 7 7) (after (seg 0 7) V))))))))))) :=
  (after_step 0 7 7 rfl _).trans <|
    (after_step 7 7 14 rfl _).trans <|
    (after_step 14 27 41 rfl _).trans <|
    (after_step 41 27 68 rfl _).trans <|
    (after_step 68 27 95 rfl _).trans <|
    (after_step 95 27 122 rfl _).trans <|
    (after_step 122 27 149 rfl _).trans <|
    (after_step 149 27 176 rfl _).trans <|
    (after_step 176 27 203 rfl _).trans <|
    (after_step 203 27 230 rfl _).trans <|
    (after_step 230 7 237 rfl _).trans rfl

/-! ## Each stretch from contents that agree with `V` at the arguments -/

theorem layer1_of {V W : Valuation τ sig (Elt F)} (h : SameArgs V W) :
    after (seg (F := F) 0 7) W (Proc.devRef .tc main_v4) = val_main_v4 (V (Proc.devRef .tc main_arg0)) (V (Proc.devRef .tc main_arg1)) (V (Proc.devRef .tc main_arg2)) :=
  layer1 W _ _ _ (h _ arg0_unwritten) (h _ arg1_unwritten) (h _ arg2_unwritten)

theorem layer2_of {V W : Valuation τ sig (Elt F)} (h : SameArgs V W) (hin : W (Proc.devRef .tc main_v4) = val_main_v4 (V (Proc.devRef .tc main_arg0)) (V (Proc.devRef .tc main_arg1)) (V (Proc.devRef .tc main_arg2))) :
    after (seg (F := F) 7 7) W (Proc.devRef .tc main_v9) = val_main_v9 (V (Proc.devRef .tc main_arg0)) (V (Proc.devRef .tc main_arg1)) (V (Proc.devRef .tc main_arg2)) (V (Proc.devRef .tc main_arg3)) (V (Proc.devRef .tc main_arg4)) :=
  layer2 W _ _ _ _ _ hin (h _ arg3_unwritten) (h _ arg4_unwritten)

theorem stage0_of {V W : Valuation τ sig (Elt F)} (h : SameArgs V W) (hin : W (Proc.devRef .tc main_v9) = val_main_v9 (V (Proc.devRef .tc main_arg0)) (V (Proc.devRef .tc main_arg1)) (V (Proc.devRef .tc main_arg2)) (V (Proc.devRef .tc main_arg3)) (V (Proc.devRef .tc main_arg4))) :
    after (seg (F := F) 14 27) W (Proc.devRef .tc main_v36) = val_main_v36 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage0 W _ _ _ _ _ _ hin (h _ arg5_unwritten)

theorem stage1_of {V W : Valuation τ sig (Elt F)} (h : SameArgs V W) (hin : W (Proc.devRef .tc main_v36) = val_main_v36 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 41 27) W (Proc.devRef .tc main_v63) = val_main_v63 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage1 W _ _ _ _ _ _ hin (h _ arg5_unwritten)

theorem stage2_of {V W : Valuation τ sig (Elt F)} (h : SameArgs V W) (hin : W (Proc.devRef .tc main_v63) = val_main_v63 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 68 27) W (Proc.devRef .tc main_v90) = val_main_v90 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage2 W _ _ _ _ _ _ hin (h _ arg5_unwritten)

theorem stage3_of {V W : Valuation τ sig (Elt F)} (h : SameArgs V W) (hin : W (Proc.devRef .tc main_v90) = val_main_v90 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 95 27) W (Proc.devRef .tc main_v117) = val_main_v117 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage3 W _ _ _ _ _ _ hin (h _ arg5_unwritten)

theorem stage4_of {V W : Valuation τ sig (Elt F)} (h : SameArgs V W) (hin : W (Proc.devRef .tc main_v117) = val_main_v117 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 122 27) W (Proc.devRef .tc main_v144) = val_main_v144 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage4 W _ _ _ _ _ _ hin (h _ arg5_unwritten)

theorem stage5_of {V W : Valuation τ sig (Elt F)} (h : SameArgs V W) (hin : W (Proc.devRef .tc main_v144) = val_main_v144 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 149 27) W (Proc.devRef .tc main_v171) = val_main_v171 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage5 W _ _ _ _ _ _ hin (h _ arg5_unwritten)

theorem stage6_of {V W : Valuation τ sig (Elt F)} (h : SameArgs V W) (hin : W (Proc.devRef .tc main_v171) = val_main_v171 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 176 27) W (Proc.devRef .tc main_v198) = val_main_v198 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage6 W _ _ _ _ _ _ hin (h _ arg5_unwritten)

theorem stage7_of {V W : Valuation τ sig (Elt F)} (h : SameArgs V W) (hin : W (Proc.devRef .tc main_v198) = val_main_v198 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 203 27) W (Proc.devRef .tc main_v225) = val_main_v225 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  stage7 W _ _ _ _ _ _ hin (h _ arg5_unwritten)

theorem layer3_of {V W : Valuation τ sig (Elt F)} (h : SameArgs V W) (hin : W (Proc.devRef .tc main_v225) = val_main_v225 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (seg (F := F) 230 7) W (Proc.devRef .tc main_v230) = val_main_v230 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  layer3 W _ _ _ _ _ _ _ _ hin (h _ arg6_unwritten) (h _ arg7_unwritten)

theorem layer4_of {V W : Valuation τ sig (Elt F)} (h : SameArgs V W) (hin : W (Proc.devRef .tc main_v230) = val_main_v230 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :
    after ((ops (F := F)).drop 237) W (Proc.devRef .tc main_v234) = val_main_v234 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  layer4 W _ _ _ _ _ _ _ _ _ _ hin (h _ arg8_unwritten) (h _ arg9_unwritten)

/-- The whole line's result: the twelve stretches in a row, each reading the one before it. -/
theorem after_ops_main_v234 (V : Valuation τ sig (Elt F)) :
    after (ops (F := F)) V (Proc.devRef .tc main_v234) = val_main_v234 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  have s0 : SameArgs V V := SameArgs.refl V
  have s1 := s0.step 0 7
  have s2 := s1.step 7 7
  have s3 := s2.step 14 27
  have s4 := s3.step 41 27
  have s5 := s4.step 68 27
  have s6 := s5.step 95 27
  have s7 := s6.step 122 27
  have s8 := s7.step 149 27
  have s9 := s8.step 176 27
  have s10 := s9.step 203 27
  have s11 := s10.step 230 7
  have o0 := layer1_of s0
  have o1 := layer2_of s1 o0
  have o2 := stage0_of s2 o1
  have o3 := stage1_of s3 o2
  have o4 := stage2_of s4 o3
  have o5 := stage3_of s5 o4
  have o6 := stage4_of s6 o5
  have o7 := stage5_of s7 o6
  have o8 := stage6_of s8 o7
  have o9 := stage7_of s9 o8
  have o10 := layer3_of s10 o9
  have o11 := layer4_of s11 o10
  rw [after_ops_split]
  exact o11

/-- On every device, for any float values, from any memory with zero counters: every weakly fair execution of
    @main terminates with the result buffer at the reference's value, read one operation at a time
    (`Read.val_main_v234`) from the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v234) = val_main_v234 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v234).trans (after_ops_main_v234 (launchContents m c)),
      (h c main_arg0).trans (after_of_forall_not_mem _ _ arg0_unwritten),
      (h c main_arg1).trans (after_of_forall_not_mem _ _ arg1_unwritten),
      (h c main_arg2).trans (after_of_forall_not_mem _ _ arg2_unwritten),
      (h c main_arg3).trans (after_of_forall_not_mem _ _ arg3_unwritten),
      (h c main_arg4).trans (after_of_forall_not_mem _ _ arg4_unwritten),
      (h c main_arg5).trans (after_of_forall_not_mem _ _ arg5_unwritten),
      (h c main_arg6).trans (after_of_forall_not_mem _ _ arg6_unwritten),
      (h c main_arg7).trans (after_of_forall_not_mem _ _ arg7_unwritten),
      (h c main_arg8).trans (after_of_forall_not_mem _ _ arg8_unwritten),
      (h c main_arg9).trans (after_of_forall_not_mem _ _ arg9_unwritten)⟩)
    (run_seq scopedRefs_eq scopedSems_eq defs main (fun _ => ops) main_eq (fun _ => ops_sub) m ρ)

end Cert.ReferenceIdeal.RefValue

end
-- ==== Proof.LibButterfly.lean ====
/-
  One butterfly stage of Givens rotations on the rows of an array of width W = nb · 2 · st, read entry by entry.
  A row is cut into nb blocks of 2 · st entries; inside a block the first st entries (the half 0) are paired with the
  last st entries (the half 1), entry o of one half with entry o of the other, and the pair (a, b) at block b,
  offset o is rotated by the angle t(b, o):  a ↦ cos t · a − sin t · b,  b ↦ sin t · a + cos t · b.
  The position of (block b, half hf, offset o) in its row is (b · 2 + hf) · st + o.
  Both programs compute the stage through the same layout steps (view the array as [R, nb, 2, st], slice the two
  halves, multiply by the broadcast cosines and sines, join the halves again, view as [R, W]); this file reads
  each layout step at an index, for any extents.
-/
import Idealize.ShloMosaic.Lib.Pipeline.Value
import Idealize.ShloMosaic.Lib.ValueIdx
import Idealize.ShloMosaic.PureOps.Ideal

noncomputable section

namespace Cert.Bfly

open Idealize.ShloMosaic Idealize.ShloMosaic.ValueIdx

variable {α : Type} {R nb st W : ℕ}

/-- The position in its row of the entry at block b, half hf, offset o. -/
def pos (b : Fin nb) (hf : Fin 2) (o : Fin st) : ℕ := (b.val * 2 + hf.val) * st + o.val

theorem pos_lt (hW : nb * 2 * st = W) (b : Fin nb) (hf : Fin 2) (o : Fin st) : pos b hf o < W := by
  unfold pos
  have hb := b.isLt; have hh := hf.isLt; have ho := o.isLt
  calc (b.val * 2 + hf.val) * st + o.val < (b.val * 2 + hf.val) * st + st := by omega
    _ = (b.val * 2 + hf.val + 1) * st := by ring
    _ ≤ (nb * 2) * st := Nat.mul_le_mul_right _ (by omega)
    _ = W := hW

/-- The column of the entry at block b, half hf, offset o. -/
def col (hW : nb * 2 * st = W) (b : Fin nb) (hf : Fin 2) (o : Fin st) : Fin W := ⟨pos b hf o, pos_lt hW b hf o⟩

/-- Every column is the column of some (block, half, offset). -/
theorem col_surj (hW : nb * 2 * st = W) (k : Fin W) : ∃ (b : Fin nb) (hf : Fin 2) (o : Fin st), k = col hW b hf o := by
  have hk := k.isLt
  have hst : 0 < st := by
    rcases Nat.eq_zero_or_pos st with h | h
    · subst h; simp at hW; omega
    · exact h
  have hq : k.val / st < nb * 2 := by
    apply Nat.div_lt_of_lt_mul
    calc k.val < W := hk
      _ = nb * 2 * st := hW.symm
      _ = st * (nb * 2) := by ring
  refine ⟨⟨k.val / st / 2, by omega⟩, ⟨k.val / st % 2, Nat.mod_lt _ (by decide)⟩, ⟨k.val % st, Nat.mod_lt _ hst⟩, ?_⟩
  apply Fin.ext
  show k.val = (k.val / st / 2 * 2 + k.val / st % 2) * st + k.val % st
  rw [Nat.div_add_mod' (k.val / st) 2, Nat.div_add_mod' k.val st]

/-- The view of an [R, W] array as [R, nb, 2, st]: entry (r, b, hf, o) is entry (r, col b hf o). -/
theorem split_apply (hW : nb * 2 * st = W) (h : (⟨2, ![R, W]⟩ : Shape).Idx → α)
    (hc : (⟨2, ![R, W]⟩ : Shape).ShapeCasts ⟨4, ![R, nb, 2, st]⟩) (r : Fin R) (b : Fin nb) (hf : Fin 2) (o : Fin st) :
    shapeCast ⟨4, ![R, nb, 2, st]⟩ h hc (ix4 r b hf o) = h (ix2 r (col hW b hf o)) := by
  refine shapeCast_apply h hc _ _ ?_
  rw [Shape.rowMajor_val_two, Shape.rowMajor_val_four]
  show r.val * W + ((b.val * 2 + hf.val) * st + o.val) = ((r.val * nb + b.val) * 2 + hf.val) * st + o.val
  rw [← hW]; ring

/-- The view of an [R, nb, 2, st] array as [R, W]: entry (r, col b hf o) is entry (r, b, hf, o). -/
theorem join_apply (hW : nb * 2 * st = W) (X : (⟨4, ![R, nb, 2, st]⟩ : Shape).Idx → α)
    (hc : (⟨4, ![R, nb, 2, st]⟩ : Shape).ShapeCasts ⟨2, ![R, W]⟩) (r : Fin R) (b : Fin nb) (hf : Fin 2) (o : Fin st) :
    shapeCast ⟨2, ![R, W]⟩ X hc (ix2 r (col hW b hf o)) = X (ix4 r b hf o) := by
  refine shapeCast_apply X hc _ _ ?_
  rw [Shape.rowMajor_val_two, Shape.rowMajor_val_four]
  show ((r.val * nb + b.val) * 2 + hf.val) * st + o.val = r.val * W + ((b.val * 2 + hf.val) * st + o.val)
  rw [← hW]; ring

/-- Half e (0 or 1) of the [R, nb, 2, st] view, with its unit axis dropped: entry (r, b, o) is entry (r, b, e, o). -/
theorem half_apply (e : Fin 2) (X : (⟨4, ![R, nb, 2, st]⟩ : Shape).Idx → α)
    (hs : (⟨4, ![R, nb, 2, st]⟩ : Shape).Slices ![0, 0, e.val, 0] ⟨4, ![R, nb, 1, st]⟩)
    (hc : (⟨4, ![R, nb, 1, st]⟩ : Shape).ShapeCasts ⟨3, ![R, nb, st]⟩) (r : Fin R) (b : Fin nb) (o : Fin st) :
    shapeCast ⟨3, ![R, nb, st]⟩ (extractStridedSlice ⟨4, ![R, nb, 1, st]⟩ ![0, 0, e.val, 0] X hs) hc (ix3 r b o)
      = X (ix4 r b e o) := by
  refine (shapeCast_apply _ hc (ix3 r b o) (ix4 r b (0 : Fin 1) o) ?_).trans ?_
  · rw [Shape.rowMajor_val_four, Shape.rowMajor_val_three]
    show ((r.val * nb + b.val) * 1 + 0) * st + o.val = (r.val * nb + b.val) * st + o.val
    ring
  · refine extractStridedSlice_apply _ X hs _ _ fun a => ?_
    match a with
    | ⟨0, _⟩ => show r.val = 0 + r.val; omega
    | ⟨1, _⟩ => show b.val = 0 + b.val; omega
    | ⟨2, _⟩ => show e.val = e.val + 0; omega
    | ⟨3, _⟩ => show o.val = 0 + o.val; omega

/-- A unit axis put back by a shape cast: entry (r, b, 0, o) is entry (r, b, o). -/
theorem unitCast_apply (v : (⟨3, ![R, nb, st]⟩ : Shape).Idx → α)
    (hc : (⟨3, ![R, nb, st]⟩ : Shape).ShapeCasts ⟨4, ![R, nb, 1, st]⟩) (r : Fin R) (b : Fin nb) (o : Fin st) :
    shapeCast ⟨4, ![R, nb, 1, st]⟩ v hc (ix4 r b (0 : Fin 1) o) = v (ix3 r b o) := by
  refine shapeCast_apply v hc _ _ ?_
  rw [Shape.rowMajor_val_four, Shape.rowMajor_val_three]
  show (r.val * nb + b.val) * st + o.val = ((r.val * nb + b.val) * 1 + 0) * st + o.val
  ring

/-- A unit axis put back by a broadcast along the axes 0, 1, 3: entry (r, b, 0, o) is entry (r, b, o). -/
theorem unitBcast_apply (v : (⟨3, ![R, nb, st]⟩ : Shape).Idx → α)
    (hb : (⟨3, ![R, nb, st]⟩ : Shape).BroadcastsInDim ⟨4, ![R, nb, 1, st]⟩ ![0, 1, 3]) (r : Fin R) (b : Fin nb) (o : Fin st) :
    broadcastInDim ⟨4, ![R, nb, 1, st]⟩ ![0, 1, 3] hb v (ix4 r b (0 : Fin 1) o) = v (ix3 r b o) := by
  refine broadcastInDim_apply _ hb v _ _ fun a => ?_
  match a with
  | ⟨0, _⟩ =>
    show r.val = if R = 1 then 0 else r.val
    split
    · have := r.isLt; omega
    · rfl
  | ⟨1, _⟩ =>
    show b.val = if nb = 1 then 0 else b.val
    split
    · have := b.isLt; omega
    · rfl
  | ⟨2, _⟩ =>
    show o.val = if st = 1 then 0 else o.val
    split
    · have := o.isLt; omega
    · rfl

/-- The two halves joined along the axis 2: half 0 comes from the first piece, half 1 from the second. -/
theorem cat_apply (A B : (⟨4, ![R, nb, 1, st]⟩ : Shape).Idx → α)
    (hcat : Shape.Concatenates [(⟨4, ![R, nb, 1, st]⟩ : Shape), ⟨4, ![R, nb, 1, st]⟩] ⟨4, ![R, nb, 2, st]⟩ 2)
    (r : Fin R) (b : Fin nb) (hf : Fin 2) (o : Fin st) :
    concatenate ⟨4, ![R, nb, 2, st]⟩ 2 [⟨⟨4, ![R, nb, 1, st]⟩, A⟩, ⟨⟨4, ![R, nb, 1, st]⟩, B⟩] hcat (ix4 r b hf o)
      = if hf = 0 then A (ix4 r b (0 : Fin 1) o) else B (ix4 r b (0 : Fin 1) o) := by
  by_cases h0 : hf = 0
  · subst h0
    rw [if_pos rfl]
    refine concatenate_pair_apply_left (t := ⟨4, ![R, nb, 2, st]⟩) 2 A B hcat _ rfl _ fun a => ?_
    match a with
    | ⟨0, _⟩ => rfl
    | ⟨1, _⟩ => rfl
    | ⟨2, _⟩ => rfl
    | ⟨3, _⟩ => rfl
  · rw [if_neg h0]
    have h1 : hf.val = 1 := by
      have := hf.isLt
      have : hf.val ≠ 0 := fun h => h0 (Fin.ext h)
      omega
    refine concatenate_pair_apply_right (t := ⟨4, ![R, nb, 2, st]⟩) 2 A B hcat _ rfl rfl _ (fun a ha => ?_) ?_
    · match a with
      | ⟨0, _⟩ => rfl
      | ⟨1, _⟩ => rfl
      | ⟨2, _⟩ => exact absurd rfl ha
      | ⟨3, _⟩ => rfl
    · show 0 + 1 = hf.val
      omega

variable {T N : ℕ}

/-- The position of the angle of block b, offset o among the nb · st angles of a stage. -/
theorem tpos_lt (hT : nb * st = T) (b : Fin nb) (o : Fin st) : b.val * st + o.val < T := by
  have hb := b.isLt; have ho := o.isLt
  calc b.val * st + o.val < b.val * st + st := by omega
    _ = (b.val + 1) * st := by ring
    _ ≤ nb * st := Nat.mul_le_mul_right _ (by omega)
    _ = T := hT

/-- A table [nb, st] given a leading unit axis and broadcast over the rows: entry (r, b, o) is entry (b, o). -/
theorem rowsCast_apply (c2 : (⟨2, ![nb, st]⟩ : Shape).Idx → α)
    (hc : (⟨2, ![nb, st]⟩ : Shape).ShapeCasts ⟨3, ![1, nb, st]⟩)
    (hb : (⟨3, ![1, nb, st]⟩ : Shape).Broadcasts ⟨3, ![R, nb, st]⟩) (r : Fin R) (b : Fin nb) (o : Fin st) :
    broadcastTo ⟨3, ![R, nb, st]⟩ (shapeCast ⟨3, ![1, nb, st]⟩ c2 hc) hb (ix3 r b o) = c2 (ix2 b o) := by
  refine (broadcastTo_apply _ hb (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine shapeCast_apply c2 hc _ _ ?_
    rw [Shape.rowMajor_val_two, Shape.rowMajor_val_three]
    show b.val * st + o.val = (0 * nb + b.val) * st + o.val
    ring

/-- The same through two broadcasts that name their axes: entry (r, b, o) is entry (b, o). -/
theorem rowsBcast_apply (c2 : (⟨2, ![nb, st]⟩ : Shape).Idx → α)
    (hb1 : (⟨2, ![nb, st]⟩ : Shape).BroadcastsInDim ⟨3, ![1, nb, st]⟩ ![1, 2])
    (hb2 : (⟨3, ![1, nb, st]⟩ : Shape).BroadcastsInDim ⟨3, ![R, nb, st]⟩ ![0, 1, 2]) (r : Fin R) (b : Fin nb) (o : Fin st) :
    broadcastInDim ⟨3, ![R, nb, st]⟩ ![0, 1, 2] hb2 (broadcastInDim ⟨3, ![1, nb, st]⟩ ![1, 2] hb1 c2) (ix3 r b o) = c2 (ix2 b o) := by
  refine (broadcastInDim_apply _ hb2 _ (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine broadcastInDim_apply _ hb1 c2 _ _ fun a => ?_
    match a with
    | ⟨0, _⟩ =>
      show b.val = if nb = 1 then 0 else b.val
      split
      · have := b.isLt; omega
      · rfl
    | ⟨1, _⟩ =>
      show o.val = if st = 1 then 0 else o.val
      split
      · have := o.isLt; omega
      · rfl

/-- A row [1, T] of angles viewed as a vector and then as [nb, st]: entry (b, o) is entry (0, b · st + o). -/
theorem tableK_apply (hT : nb * st = T) (v : (⟨2, ![1, T]⟩ : Shape).Idx → α)
    (h1 : (⟨2, ![1, T]⟩ : Shape).ShapeCasts ⟨1, ![T]⟩) (h2 : (⟨1, ![T]⟩ : Shape).ShapeCasts ⟨2, ![nb, st]⟩)
    (b : Fin nb) (o : Fin st) :
    shapeCast ⟨2, ![nb, st]⟩ (shapeCast ⟨1, ![T]⟩ v h1) h2 (ix2 b o) = v (ix2 (0 : Fin 1) ⟨b.val * st + o.val, tpos_lt hT b o⟩) := by
  refine (shapeCast_apply _ h2 (ix2 b o) (ix1 ⟨b.val * st + o.val, tpos_lt hT b o⟩) ?_).trans ?_
  · rw [Shape.rowMajor_val_one, Shape.rowMajor_val_two]; rfl
  · refine shapeCast_apply v h1 _ _ ?_
    rw [Shape.rowMajor_val_one, Shape.rowMajor_val_two]
    show 0 * T + (b.val * st + o.val) = b.val * st + o.val
    ring

/-- The T angles from offset off of a vector of N angles, viewed as [nb, st]: entry (b, o) is entry off + b · st + o. -/
theorem tableR_apply (off : ℕ) (θ : (⟨1, ![N]⟩ : Shape).Idx → α)
    (hs : (⟨1, ![N]⟩ : Shape).Slices ![off] ⟨1, ![T]⟩) (hc : (⟨1, ![T]⟩ : Shape).ShapeCasts ⟨2, ![nb, st]⟩)
    (hT : nb * st = T) (b : Fin nb) (o : Fin st) (hlt : off + (b.val * st + o.val) < N) :
    shapeCast ⟨2, ![nb, st]⟩ (extractStridedSlice ⟨1, ![T]⟩ ![off] θ hs) hc (ix2 b o) = θ (ix1 ⟨off + (b.val * st + o.val), hlt⟩) := by
  refine (shapeCast_apply _ hc (ix2 b o) (ix1 ⟨b.val * st + o.val, tpos_lt hT b o⟩) ?_).trans ?_
  · rw [Shape.rowMajor_val_one, Shape.rowMajor_val_two]; rfl
  · refine extractStridedSlice_apply _ θ hs _ _ fun a => ?_
    match a with
    | ⟨0, _⟩ => rfl

/-! ## The stage -/

section Stage

variable (hW : nb * 2 * st = W)

/-- One stage over the [R, nb, 2, st] view, given the cosines C and sines S already laid out as [R, nb, st] and the way a
    rotated half gets its unit axis back (unit): the halves a, b become C·a − S·b and S·a + C·b. -/
def core
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (unit : FVec Ideal ⟨3, ![R, nb, st]⟩ .f32 → FVec Ideal ⟨4, ![R, nb, 1, st]⟩ .f32)
    (C S : FVec Ideal ⟨3, ![R, nb, st]⟩ .f32) (h : FVec Ideal ⟨2, ![R, W]⟩ .f32) : FVec Ideal ⟨2, ![R, W]⟩ .f32 :=
  shapeCast ⟨2, ![R, W]⟩
    (concatenate ⟨4, ![R, nb, 2, st]⟩ 2
      [⟨⟨4, ![R, nb, 1, st]⟩, unit (subf
          (mulf C (shapeCast ⟨3, ![R, nb, st]⟩ (extractStridedSlice ⟨4, ![R, nb, 1, st]⟩ ![0, 0, 0, 0] (shapeCast ⟨4, ![R, nb, 2, st]⟩ h hsplit) hs0) hdrop))
          (mulf S (shapeCast ⟨3, ![R, nb, st]⟩ (extractStridedSlice ⟨4, ![R, nb, 1, st]⟩ ![0, 0, 1, 0] (shapeCast ⟨4, ![R, nb, 2, st]⟩ h hsplit) hs1) hdrop)))⟩,
       ⟨⟨4, ![R, nb, 1, st]⟩, unit (addf
          (mulf S (shapeCast ⟨3, ![R, nb, st]⟩ (extractStridedSlice ⟨4, ![R, nb, 1, st]⟩ ![0, 0, 0, 0] (shapeCast ⟨4, ![R, nb, 2, st]⟩ h hsplit) hs0) hdrop))
          (mulf C (shapeCast ⟨3, ![R, nb, st]⟩ (extractStridedSlice ⟨4, ![R, nb, 1, st]⟩ ![0, 0, 1, 0] (shapeCast ⟨4, ![R, nb, 2, st]⟩ h hsplit) hs1) hdrop)))⟩]
      hcat)
    hjoin

/-- The stage entry by entry: at block b, offset o the half 0 becomes C·a − S·b and the half 1 becomes S·a + C·b,
    a and b the entries of the two halves at (b, o) in the same row. -/
theorem core_apply hsplit hs0 hs1 hdrop hcat hjoin
    (unit : FVec Ideal ⟨3, ![R, nb, st]⟩ .f32 → FVec Ideal ⟨4, ![R, nb, 1, st]⟩ .f32)
    (hunit : ∀ v r b o, unit v (ix4 r b (0 : Fin 1) o) = v (ix3 r b o))
    (C S : FVec Ideal ⟨3, ![R, nb, st]⟩ .f32) (h : FVec Ideal ⟨2, ![R, W]⟩ .f32)
    (r : Fin R) (b : Fin nb) (hf : Fin 2) (o : Fin st) :
    core hsplit hs0 hs1 hdrop hcat hjoin unit C S h (ix2 r (col hW b hf o))
      = if hf = 0 then C (ix3 r b o) * h (ix2 r (col hW b 0 o)) - S (ix3 r b o) * h (ix2 r (col hW b 1 o))
        else S (ix3 r b o) * h (ix2 r (col hW b 0 o)) + C (ix3 r b o) * h (ix2 r (col hW b 1 o)) := by
  unfold core
  rw [join_apply hW, cat_apply, hunit, hunit]
  have ha : shapeCast ⟨3, ![R, nb, st]⟩ (extractStridedSlice ⟨4, ![R, nb, 1, st]⟩ ![0, 0, 0, 0] (shapeCast ⟨4, ![R, nb, 2, st]⟩ h hsplit) hs0) hdrop (ix3 r b o)
      = h (ix2 r (col hW b 0 o)) :=
    (half_apply (0 : Fin 2) _ hs0 hdrop r b o).trans (split_apply hW h hsplit r b 0 o)
  have hb : shapeCast ⟨3, ![R, nb, st]⟩ (extractStridedSlice ⟨4, ![R, nb, 1, st]⟩ ![0, 0, 1, 0] (shapeCast ⟨4, ![R, nb, 2, st]⟩ h hsplit) hs1) hdrop (ix3 r b o)
      = h (ix2 r (col hW b 1 o)) :=
    (half_apply (1 : Fin 2) _ hs1 hdrop r b o).trans (split_apply hW h hsplit r b 1 o)
  rw [subf_apply, addf_apply, mulf_apply, mulf_apply, mulf_apply, mulf_apply, ha, hb]

end Stage

/-! ## Rows -/

/-- Y holds, row for row, the rows e of X. -/
def RowsOf {R' n : ℕ} (e : Fin R' → Fin R) (Y : (⟨2, ![R', n]⟩ : Shape).Idx → EReal) (X : (⟨2, ![R, n]⟩ : Shape).Idx → EReal) : Prop :=
  ∀ (r : Fin R') (k : Fin n), Y (ix2 r k) = X (ix2 (e r) k)

/-! ## The stage as each program spells it -/

section Spellings

variable {R' off : ℕ}

theorem hostCos_apply {s : Shape} (x : FVec Ideal s .f32) (i : s.Idx) : Host.cos x i = FloatOps.hostUnary (F := Ideal) .cos (x i) := rfl
theorem hostSin_apply {s : Shape} (x : FVec Ideal s .f32) (i : s.Idx) : Host.sin x i = FloatOps.hostUnary (F := Ideal) .sin (x i) := rfl

/-- The stage with the cosines and sines given as rows [1, T] of ready-made tables: each row is viewed as [nb, st], given a
    leading unit axis and broadcast over the R rows; a rotated half gets its unit axis back by a shape cast. -/
def stageK
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).ShapeCasts ⟨4, ![R, nb, 1, st]⟩)
    (q1 : (⟨2, ![1, T]⟩ : Shape).ShapeCasts ⟨1, ![T]⟩) (q2 : (⟨1, ![T]⟩ : Shape).ShapeCasts ⟨2, ![nb, st]⟩)
    (q3 : (⟨2, ![nb, st]⟩ : Shape).ShapeCasts ⟨3, ![1, nb, st]⟩) (qb : (⟨3, ![1, nb, st]⟩ : Shape).Broadcasts ⟨3, ![R, nb, st]⟩)
    (vc vs : FVec Ideal ⟨2, ![1, T]⟩ .f32) (h : FVec Ideal ⟨2, ![R, W]⟩ .f32) : FVec Ideal ⟨2, ![R, W]⟩ .f32 :=
  core hsplit hs0 hs1 hdrop hcat hjoin (fun v => shapeCast ⟨4, ![R, nb, 1, st]⟩ v hins)
    (broadcastTo ⟨3, ![R, nb, st]⟩ (shapeCast ⟨3, ![1, nb, st]⟩ (shapeCast ⟨2, ![nb, st]⟩ (shapeCast ⟨1, ![T]⟩ vc q1) q2) q3) qb)
    (broadcastTo ⟨3, ![R, nb, st]⟩ (shapeCast ⟨3, ![1, nb, st]⟩ (shapeCast ⟨2, ![nb, st]⟩ (shapeCast ⟨1, ![T]⟩ vs q1) q2) q3) qb)
    h

/-- The stage with the angles taken from a vector of N angles at offset off: the T angles are viewed as [nb, st], their
    cosines and sines broadcast over the R rows through two broadcasts that name their axes; a rotated half gets its unit
    axis back by a broadcast along the axes 0, 1, 3. -/
def stageR (off : ℕ)
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).BroadcastsInDim ⟨4, ![R, nb, 1, st]⟩ ![0, 1, 3])
    (ps : (⟨1, ![N]⟩ : Shape).Slices ![off] ⟨1, ![T]⟩) (pc : (⟨1, ![T]⟩ : Shape).ShapeCasts ⟨2, ![nb, st]⟩)
    (p1 : (⟨2, ![nb, st]⟩ : Shape).BroadcastsInDim ⟨3, ![1, nb, st]⟩ ![1, 2])
    (p2 : (⟨3, ![1, nb, st]⟩ : Shape).BroadcastsInDim ⟨3, ![R, nb, st]⟩ ![0, 1, 2])
    (θ : FVec Ideal ⟨1, ![N]⟩ .f32) (h : FVec Ideal ⟨2, ![R, W]⟩ .f32) : FVec Ideal ⟨2, ![R, W]⟩ .f32 :=
  core hsplit hs0 hs1 hdrop hcat hjoin (fun v => broadcastInDim ⟨4, ![R, nb, 1, st]⟩ ![0, 1, 3] hins v)
    (broadcastInDim ⟨3, ![R, nb, st]⟩ ![0, 1, 2] p2 (broadcastInDim ⟨3, ![1, nb, st]⟩ ![1, 2] p1
      (Host.cos (shapeCast ⟨2, ![nb, st]⟩ (extractStridedSlice ⟨1, ![T]⟩ ![off] θ ps) pc))))
    (broadcastInDim ⟨3, ![R, nb, st]⟩ ![0, 1, 2] p2 (broadcastInDim ⟨3, ![1, nb, st]⟩ ![1, 2] p1
      (Host.sin (shapeCast ⟨2, ![nb, st]⟩ (extractStridedSlice ⟨1, ![T]⟩ ![off] θ ps) pc))))
    h

/-- Row for row the two spellings agree: if Y holds the rows e of X and the ready-made tables hold the cosines and sines
    of the angles at off …, then the stage of Y holds the rows e of the stage of X. -/
theorem stage_rows (hW : nb * 2 * st = W) (hT : nb * st = T) (hoff : off + T ≤ N) (e : Fin R' → Fin R)
    hsplit hs0 hs1 hdrop hcat hjoin hins q1 q2 q3 qb
    hsplit' hs0' hs1' hdrop' hcat' hjoin' hins' ps pc p1 p2
    (vc vs : FVec Ideal ⟨2, ![1, T]⟩ .f32) (θ : FVec Ideal ⟨1, ![N]⟩ .f32)
    (hvc : ∀ (j : Fin T) (hlt : off + j.val < N), vc (ix2 (0 : Fin 1) j) = FloatOps.hostUnary (F := Ideal) .cos (θ (ix1 ⟨off + j.val, hlt⟩)))
    (hvs : ∀ (j : Fin T) (hlt : off + j.val < N), vs (ix2 (0 : Fin 1) j) = FloatOps.hostUnary (F := Ideal) .sin (θ (ix1 ⟨off + j.val, hlt⟩)))
    (Y : FVec Ideal ⟨2, ![R', W]⟩ .f32) (X : FVec Ideal ⟨2, ![R, W]⟩ .f32) (hY : RowsOf e Y X) :
    RowsOf e (stageK (R := R') (nb := nb) (st := st) (T := T) hsplit hs0 hs1 hdrop hcat hjoin hins q1 q2 q3 qb vc vs Y)
      (stageR (R := R) (nb := nb) (st := st) (T := T) (N := N) off hsplit' hs0' hs1' hdrop' hcat' hjoin' hins' ps pc p1 p2 θ X) := by
  intro r k
  obtain ⟨b, hf, o, rfl⟩ := col_surj hW k
  have hlt : off + (b.val * st + o.val) < N := by have := tpos_lt hT b o; omega
  unfold stageK stageR
  rw [core_apply hW _ _ _ _ _ _ _ (fun v r b o => unitCast_apply v hins r b o),
    core_apply hW _ _ _ _ _ _ _ (fun v r b o => unitBcast_apply v hins' r b o),
    rowsCast_apply, rowsCast_apply, tableK_apply hT, tableK_apply hT,
    rowsBcast_apply, rowsBcast_apply, hostCos_apply, hostSin_apply, tableR_apply off θ ps pc hT b o hlt,
    hvc _ hlt, hvs _ hlt, hY, hY]

end Spellings

end Cert.Bfly

end
-- ==== Proof.LibDenseRows.lean ====
/-
  A row-tiled affine layer x · w + b and the maximum with zero, read entry by entry for any extents, in the two
  spellings the programs use (a matrix unit's product into a zero accumulator with a [1, N] bias broadcast over the
  rows; a host product with an [N] bias broadcast through [1, N]). Every product is the plain finite sum over the
  contracted coordinate, so a layer applied to some rows of an array gives the same rows of the layer applied to the
  whole array.
-/
import Idealize.ShloMosaic.Lib.Pipeline.Value
import Idealize.ShloMosaic.Lib.ValueIdx
import Idealize.ShloMosaic.Lib.StackMember
import Idealize.ShloMosaic.PureOps.Ideal.Laws
import proofs.«166147_j45853070852455_1_alg».proof.Proof.LibButterfly

noncomputable section

namespace Cert.Dense

open Idealize.ShloMosaic Idealize.ShloMosaic.ValueIdx Cert.Bfly

variable {R R' K N : ℕ} {φ₁ φ₂ : FTy}

/-- The plain product of an R×K by a K×N matrix into a zero accumulator, read at an index, is the sum over the
    contracted coordinate of the products of the entries. -/
theorem matmul_plain_apply (prec : Option ContractPrecision)
    (A : FVec Ideal ⟨2, ![R, K]⟩ φ₁) (B : FVec Ideal ⟨2, ![K, N]⟩ φ₂) (a : Fin R) (b : Fin N) :
    matmul (DotDims.plain R K N) prec A B (constant ⟨2, ![R, N]⟩ .f32 0x00000000#32) (ix2 a b) = ∑ c : Fin K, A (ix2 a c) * B (ix2 c b) := by
  show FloatOps.matmul _ prec A B _ (ix2 a b) = _
  rw [Ideal.matmul_constant_zero_apply, ← Equiv.sum_comp (contrEquiv1 (DotDims.plain R K N) K rfl rfl).symm]
  refine Finset.sum_congr rfl fun c _ => ?_
  have c2 := contrEquiv1_symm_val (DotDims.plain R K N) K rfl rfl c
  have l2 : (DotDims.plain R K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain R K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The affine layer as a matrix unit computes it: the product into a zero accumulator plus the [1, N] bias broadcast over
    the rows. -/
def affK (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) : FVec Ideal ⟨2, ![R, N]⟩ .f32 :=
  addf (matmul (DotDims.plain R K N) none x w (constant ⟨2, ![R, N]⟩ .f32 0x00000000#32)) (broadcastTo ⟨2, ![R, N]⟩ bias pb)

/-- The affine layer as the host computes it: the product plus the [N] bias broadcast through [1, N]. -/
def affR (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) : FVec Ideal ⟨2, ![R, N]⟩ .f32 :=
  addf (Host.dotGeneral (DotDims.plain R K N) none x w) (broadcastInDim ⟨2, ![R, N]⟩ ![0, 1] p2 (broadcastInDim ⟨2, ![1, N]⟩ ![1] p1 b1))

theorem affK_apply (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) (r : Fin R) (n : Fin N) :
    affK pb x w bias (ix2 r n) = (∑ c : Fin K, x (ix2 r c) * w (ix2 c n)) + bias (ix2 (0 : Fin 1) n) := by
  unfold affK
  rw [addf_apply, matmul_plain_apply]
  refine congrArg _ (broadcastTo_apply bias pb _ _ fun a => ?_)
  match a with
  | ⟨0, _⟩ => show 0 = if (1 : ℕ) = 1 then 0 else _; rw [if_pos rfl]
  | ⟨1, _⟩ =>
    show n.val = if N = 1 then 0 else n.val
    split
    · have := n.isLt; omega
    · rfl

theorem affR_apply (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) (r : Fin R) (n : Fin N) :
    affR p1 p2 x w b1 (ix2 r n) = (∑ c : Fin K, x (ix2 r c) * w (ix2 c n)) + b1 (ix1 n) := by
  unfold affR
  rw [addf_apply, StackMember.dotGeneral_plain_apply]
  refine congrArg _ ((broadcastInDim_apply _ p2 _ (ix2 r n) (ix2 (0 : Fin 1) n) fun a => ?_).trans
    (broadcastInDim_apply _ p1 b1 _ _ fun a => ?_))
  · match a with
    | ⟨0, _⟩ => show 0 = if (1 : ℕ) = 1 then 0 else _; rw [if_pos rfl]
    | ⟨1, _⟩ =>
      show n.val = if N = 1 then 0 else n.val
      split
      · have := n.isLt; omega
      · rfl
  · match a with
    | ⟨0, _⟩ =>
      show n.val = if N = 1 then 0 else n.val
      split
      · have := n.isLt; omega
      · rfl

/-- The affine layer of some rows is the same rows of the affine layer. -/
theorem aff_rows (e : Fin R' → Fin R) (pb : (⟨2, ![1, N]⟩ : Shape).Broadcasts ⟨2, ![R', N]⟩) p1 p2
    (x' : FVec Ideal ⟨2, ![R', K]⟩ φ₁) (w' : FVec Ideal ⟨2, ![K, N]⟩ φ₂) (bias : FVec Ideal ⟨2, ![1, N]⟩ .f32)
    (x : FVec Ideal ⟨2, ![R, K]⟩ .f32) (w : FVec Ideal ⟨2, ![K, N]⟩ .f32) (b1 : FVec Ideal ⟨1, ![N]⟩ .f32)
    (hx : ∀ r k, x' (ix2 r k) = x (ix2 (e r) k)) (hw : ∀ k n, w' (ix2 k n) = w (ix2 k n)) (hb : ∀ n, bias (ix2 (0 : Fin 1) n) = b1 (ix1 n)) :
    RowsOf e (affK pb x' w' bias) (affR (R := R) p1 p2 x w b1) := by
  intro r n
  rw [affK_apply, affR_apply, hb]
  exact congrArg (· + b1 (ix1 n)) (Finset.sum_congr rfl fun c _ => by rw [hx, hw])

/-- The maximum with zero as the kernel spells it. -/
def reluK (v : FVec Ideal ⟨2, ![R, N]⟩ .f32) : FVec Ideal ⟨2, ![R, N]⟩ .f32 :=
  maximumf v (broadcast ⟨2, ![R, N]⟩ (Scalar.ofBits (F := Ideal) .f32 0x00000000#32))

/-- The maximum with zero as the host spells it. -/
def reluR (p : (⟨0, ![]⟩ : Shape).BroadcastsInDim ⟨2, ![R, N]⟩ ![]) (v : FVec Ideal ⟨2, ![R, N]⟩ .f32) : FVec Ideal ⟨2, ![R, N]⟩ .f32 :=
  maximumf v (broadcastInDim ⟨2, ![R, N]⟩ ![] p (constant (F := Ideal) ⟨0, ![]⟩ .f32 0x00000000#32))

/-- The maximum with zero of some rows is the same rows of the maximum with zero. -/
theorem relu_rows (e : Fin R' → Fin R) p (Y : FVec Ideal ⟨2, ![R', N]⟩ .f32) (X : FVec Ideal ⟨2, ![R, N]⟩ .f32) (h : RowsOf e Y X) :
    RowsOf e (reluK Y) (reluR p X) := by
  intro r n
  unfold reluK reluR
  rw [maximumf_apply, maximumf_apply, h r n]
  rfl

end Cert.Dense

end
-- ==== Proof.KernelNet.lean ====
/-
  The kernel body's stored value as a composition of layers: two affine layers with the maximum with zero, the eight
  butterfly stages on the 256-wide rows (stage s pairs entries 2^s apart, its cosines and sines row s of the two
  [8, 128] tables), a third affine layer with the maximum with zero and the output affine layer.
-/
import proofs.«166147_j45853070852455_1_alg».proof.Proof.KernelLaunch
import proofs.«166147_j45853070852455_1_alg».proof.Proof.LibButterfly
import proofs.«166147_j45853070852455_1_alg».proof.Proof.LibDenseRows

noncomputable section

namespace Cert.KernelIdeal.Net

open Cert.KernelIdeal Cert.KernelIdeal.Gen Cert.KernelIdeal.Launch Idealize.ShloMosaic Idealize.ShloMosaic.ValueIdx Cert.Bfly Cert.Dense

variable (x0 : Vec Ideal S256x4096 .f32) (x1 : Vec Ideal S4096x1024 .bf16) (x2 : Vec Ideal S1x1024 .f32) (x3 : Vec Ideal S1024x256 .bf16) (x4 : Vec Ideal S1x256 .f32) (x5 x6 : Vec Ideal S8x128 .f32) (x7 : Vec Ideal S256x1024 .bf16) (x8 : Vec Ideal S1x1024 .f32) (x9 : Vec Ideal S1024x4096 .bf16) (x10 : Vec Ideal S1x4096 .f32)

/-- The first hidden layer of the block: max(x · w0 + b0, 0). -/
def kh1 : FVec Ideal S256x1024 .f32 :=
  reluK (affK (φ₁ := .bf16) (φ₂ := .bf16) (R := 256) (K := 4096) (N := 1024) broadcasts_S1x1024_S256x1024 (truncf .bf16 (View.ld x0 r0_0) bitsLt_bf16_f32) (shapeCast S4096x1024 (View.ld x1 r0_1) shapeCasts_S4096x1024_S4096x1024) (shapeCast S1x1024 (View.ld x2 r0_2) shapeCasts_S1x1024_S1x1024))

/-- The bottleneck of the block: max(h1 · w1 + b1, 0). -/
def kh2 : FVec Ideal S256x256 .f32 :=
  reluK (affK (φ₁ := .bf16) (φ₂ := .bf16) (R := 256) (K := 1024) (N := 256) broadcasts_S1x256_S256x256 (truncf .bf16 (kh1 x0 x1 x2) bitsLt_bf16_f32) (shapeCast S1024x256 (View.ld x3 r0_3) shapeCasts_S1024x256_S1024x256) (shapeCast S1x256 (View.ld x4 r0_4) shapeCasts_S1x256_S1x256))

/-- The bottleneck after the butterfly stages 0 … 0. -/
def ks0 : FVec Ideal S256x256 .f32 :=
  stageK (R := 256) (nb := 128) (st := 1) (W := 256) (T := 128) shapeCasts_S256x256_S256x128x2x1 slices_S256x128x2x1_o0_0_0_0_S256x128x1x1 slices_S256x128x2x1_o0_0_1_0_S256x128x1x1 shapeCasts_S256x128x1x1_S256x128x1 concatenates_S256x128x1x1_S256x128x1x1_S256x128x2x1_d2 shapeCasts_S256x128x2x1_S256x256 shapeCasts_S256x128x1_S256x128x1x1 shapeCasts_S1x128_S128 shapeCasts_S128_S128x1 shapeCasts_S128x1_S1x128x1 broadcasts_S1x128x1_S256x128x1 (View.ld x5 r0_5) (View.ld x6 r0_5) (kh2 x0 x1 x2 x3 x4)

/-- The bottleneck after the butterfly stages 0 … 1. -/
def ks1 : FVec Ideal S256x256 .f32 :=
  stageK (R := 256) (nb := 64) (st := 2) (W := 256) (T := 128) shapeCasts_S256x256_S256x64x2x2 slices_S256x64x2x2_o0_0_0_0_S256x64x1x2 slices_S256x64x2x2_o0_0_1_0_S256x64x1x2 shapeCasts_S256x64x1x2_S256x64x2 concatenates_S256x64x1x2_S256x64x1x2_S256x64x2x2_d2 shapeCasts_S256x64x2x2_S256x256 shapeCasts_S256x64x2_S256x64x1x2 shapeCasts_S1x128_S128 shapeCasts_S128_S64x2 shapeCasts_S64x2_S1x64x2 broadcasts_S1x64x2_S256x64x2 (View.ld x5 r0_6) (View.ld x6 r0_6) (ks0 x0 x1 x2 x3 x4 x5 x6)

/-- The bottleneck after the butterfly stages 0 … 2. -/
def ks2 : FVec Ideal S256x256 .f32 :=
  stageK (R := 256) (nb := 32) (st := 4) (W := 256) (T := 128) shapeCasts_S256x256_S256x32x2x4 slices_S256x32x2x4_o0_0_0_0_S256x32x1x4 slices_S256x32x2x4_o0_0_1_0_S256x32x1x4 shapeCasts_S256x32x1x4_S256x32x4 concatenates_S256x32x1x4_S256x32x1x4_S256x32x2x4_d2 shapeCasts_S256x32x2x4_S256x256 shapeCasts_S256x32x4_S256x32x1x4 shapeCasts_S1x128_S128 shapeCasts_S128_S32x4 shapeCasts_S32x4_S1x32x4 broadcasts_S1x32x4_S256x32x4 (View.ld x5 r0_7) (View.ld x6 r0_7) (ks1 x0 x1 x2 x3 x4 x5 x6)

/-- The bottleneck after the butterfly stages 0 … 3. -/
def ks3 : FVec Ideal S256x256 .f32 :=
  stageK (R := 256) (nb := 16) (st := 8) (W := 256) (T := 128) shapeCasts_S256x256_S256x16x2x8 slices_S256x16x2x8_o0_0_0_0_S256x16x1x8 slices_S256x16x2x8_o0_0_1_0_S256x16x1x8 shapeCasts_S256x16x1x8_S256x16x8 concatenates_S256x16x1x8_S256x16x1x8_S256x16x2x8_d2 shapeCasts_S256x16x2x8_S256x256 shapeCasts_S256x16x8_S256x16x1x8 shapeCasts_S1x128_S128 shapeCasts_S128_S16x8 shapeCasts_S16x8_S1x16x8 broadcasts_S1x16x8_S256x16x8 (View.ld x5 r0_8) (View.ld x6 r0_8) (ks2 x0 x1 x2 x3 x4 x5 x6)

/-- The bottleneck after the butterfly stages 0 … 4. -/
def ks4 : FVec Ideal S256x256 .f32 :=
  stageK (R := 256) (nb := 8) (st := 16) (W := 256) (T := 128) shapeCasts_S256x256_S256x8x2x16 slices_S256x8x2x16_o0_0_0_0_S256x8x1x16 slices_S256x8x2x16_o0_0_1_0_S256x8x1x16 shapeCasts_S256x8x1x16_S256x8x16 concatenates_S256x8x1x16_S256x8x1x16_S256x8x2x16_d2 shapeCasts_S256x8x2x16_S256x256 shapeCasts_S256x8x16_S256x8x1x16 shapeCasts_S1x128_S128 shapeCasts_S128_S8x16 shapeCasts_S8x16_S1x8x16 broadcasts_S1x8x16_S256x8x16 (View.ld x5 r0_9) (View.ld x6 r0_9) (ks3 x0 x1 x2 x3 x4 x5 x6)

/-- The bottleneck after the butterfly stages 0 … 5. -/
def ks5 : FVec Ideal S256x256 .f32 :=
  stageK (R := 256) (nb := 4) (st := 32) (W := 256) (T := 128) shapeCasts_S256x256_S256x4x2x32 slices_S256x4x2x32_o0_0_0_0_S256x4x1x32 slices_S256x4x2x32_o0_0_1_0_S256x4x1x32 shapeCasts_S256x4x1x32_S256x4x32 concatenates_S256x4x1x32_S256x4x1x32_S256x4x2x32_d2 shapeCasts_S256x4x2x32_S256x256 shapeCasts_S256x4x32_S256x4x1x32 shapeCasts_S1x128_S128 shapeCasts_S128_S4x32 shapeCasts_S4x32_S1x4x32 broadcasts_S1x4x32_S256x4x32 (View.ld x5 r0_10) (View.ld x6 r0_10) (ks4 x0 x1 x2 x3 x4 x5 x6)

/-- The bottleneck after the butterfly stages 0 … 6. -/
def ks6 : FVec Ideal S256x256 .f32 :=
  stageK (R := 256) (nb := 2) (st := 64) (W := 256) (T := 128) shapeCasts_S256x256_S256x2x2x64 slices_S256x2x2x64_o0_0_0_0_S256x2x1x64 slices_S256x2x2x64_o0_0_1_0_S256x2x1x64 shapeCasts_S256x2x1x64_S256x2x64 concatenates_S256x2x1x64_S256x2x1x64_S256x2x2x64_d2 shapeCasts_S256x2x2x64_S256x256 shapeCasts_S256x2x64_S256x2x1x64 shapeCasts_S1x128_S128 shapeCasts_S128_S2x64 shapeCasts_S2x64_S1x2x64 broadcasts_S1x2x64_S256x2x64 (View.ld x5 r0_11) (View.ld x6 r0_11) (ks5 x0 x1 x2 x3 x4 x5 x6)

/-- The bottleneck after the butterfly stages 0 … 7. -/
def ks7 : FVec Ideal S256x256 .f32 :=
  stageK (R := 256) (nb := 1) (st := 128) (W := 256) (T := 128) shapeCasts_S256x256_S256x1x2x128 slices_S256x1x2x128_o0_0_0_0_S256x1x1x128 slices_S256x1x2x128_o0_0_1_0_S256x1x1x128 shapeCasts_S256x1x1x128_S256x1x128 concatenates_S256x1x1x128_S256x1x1x128_S256x1x2x128_d2 shapeCasts_S256x1x2x128_S256x256 shapeCasts_S256x1x128_S256x1x1x128 shapeCasts_S1x128_S128 shapeCasts_S128_S1x128 shapeCasts_S1x128_S1x1x128 broadcasts_S1x1x128_S256x1x128 (View.ld x5 r0_12) (View.ld x6 r0_12) (ks6 x0 x1 x2 x3 x4 x5 x6)

/-- The third hidden layer of the block: max(s7 · dw0 + db0, 0). -/
def kh3 : FVec Ideal S256x1024 .f32 :=
  reluK (affK (φ₁ := .bf16) (φ₂ := .bf16) (R := 256) (K := 256) (N := 1024) broadcasts_S1x1024_S256x1024 (truncf .bf16 (ks7 x0 x1 x2 x3 x4 x5 x6) bitsLt_bf16_f32) (shapeCast S256x1024 (View.ld x7 r0_13) shapeCasts_S256x1024_S256x1024) (shapeCast S1x1024 (View.ld x8 r0_2) shapeCasts_S1x1024_S1x1024))

/-- The block's output: h3 · ow + ob. -/
def kout : FVec Ideal S256x4096 .f32 :=
  affK (φ₁ := .bf16) (φ₂ := .bf16) (R := 256) (K := 1024) (N := 4096) broadcasts_S1x4096_S256x4096 (truncf .bf16 (kh3 x0 x1 x2 x3 x4 x5 x6 x7 x8) bitsLt_bf16_f32) (shapeCast S1024x4096 (View.ld x9 r0_14) shapeCasts_S1024x4096_S1024x4096) (shapeCast S1x4096 (View.ld x10 r0_15) shapeCasts_S1x4096_S1x4096)

set_option maxHeartbeats 2000000 in
/-- What the body stores is that composition (the payloads unfold to it). -/
theorem kpay_eq : kpay x0 x1 x2 x3 x4 x5 x6 x7 x8 x9 x10 = kout x0 x1 x2 x3 x4 x5 x6 x7 x8 x9 x10 := rfl

end Cert.KernelIdeal.Net

end
-- ==== Proof.RefNet.lean ====
/-
  The reference's value layer by layer: its named stages are the affine layers with the maximum with zero and the eight
  butterfly stages (stage s takes its 128 angles from offset 128 · s of the angle vector) of this certificate's layer
  functions; each equation unfolds the stage names to the operations' term.
-/
import proofs.«166147_j45853070852455_1_alg».proof.Proof.RefRead
import proofs.«166147_j45853070852455_1_alg».proof.Proof.LibButterfly
import proofs.«166147_j45853070852455_1_alg».proof.Proof.LibDenseRows

noncomputable section

namespace Cert.ReferenceIdeal.Net

open Cert.ReferenceIdeal Cert.ReferenceIdeal.Gen Cert.ReferenceIdeal.Read Idealize.ShloMosaic Idealize.ShloMosaic.ValueIdx Cert.Bfly Cert.Dense

variable (x0 : FVec Ideal S16384x4096 .f32) (x1 : FVec Ideal S4096x1024 .f32) (x2 : FVec Ideal S1024 .f32) (x3 : FVec Ideal S1024x256 .f32) (x4 : FVec Ideal S256 .f32) (x5 : FVec Ideal S1024 .f32) (x6 : FVec Ideal S256x1024 .f32) (x7 : FVec Ideal S1024 .f32) (x8 : FVec Ideal S1024x4096 .f32) (x9 : FVec Ideal S4096 .f32)

/-- The first hidden layer: max(x · w0 + b0, 0). -/
theorem h1_eq : val_main_v4 (F := Ideal) x0 x1 x2
    = reluR (R := 16384) (N := 1024) bcast_S_S16384x1024 (affR (φ₁ := .f32) (φ₂ := .f32) (R := 16384) (K := 4096) (N := 1024) bcast_S1024_S1x1024_1 bcast_S1x1024_S16384x1024_0_1 x0 x1 x2) := rfl

/-- The bottleneck: max(h1 · w1 + b1, 0). -/
theorem h2_eq : val_main_v9 (F := Ideal) x0 x1 x2 x3 x4
    = reluR (R := 16384) (N := 256) bcast_S_S16384x256 (affR (φ₁ := .f32) (φ₂ := .f32) (R := 16384) (K := 1024) (N := 256) bcast_S256_S1x256_1 bcast_S1x256_S16384x256_0_1 (val_main_v4 (F := Ideal) x0 x1 x2) x3 x4) := rfl

/-- The bottleneck after the butterfly stage 0. -/
theorem s0_eq : val_main_v36 (F := Ideal) x0 x1 x2 x3 x4 x5
    = stageR (R := 16384) (nb := 128) (st := 1) (W := 256) (T := 128) (N := 1024) 0 shapeCasts_S16384x256_S16384x128x2x1 slices_S16384x128x2x1_S16384x128x1x1_0_0_0_0 slices_S16384x128x2x1_S16384x128x1x1_0_0_1_0 shapeCasts_S16384x128x1x1_S16384x128x1 concatenates_S16384x128x1x1_S16384x128x1x1_S16384x128x2x1_d2 shapeCasts_S16384x128x2x1_S16384x256 bcast_S16384x128x1_S16384x128x1x1_0_1_3 slices_S1024_S128_0 shapeCasts_S128_S128x1 bcast_S128x1_S1x128x1_1_2 bcast_S1x128x1_S16384x128x1_0_1_2 x5 (val_main_v9 (F := Ideal) x0 x1 x2 x3 x4) := rfl

/-- The bottleneck after the butterfly stage 1. -/
theorem s1_eq : val_main_v63 (F := Ideal) x0 x1 x2 x3 x4 x5
    = stageR (R := 16384) (nb := 64) (st := 2) (W := 256) (T := 128) (N := 1024) 128 shapeCasts_S16384x256_S16384x64x2x2 slices_S16384x64x2x2_S16384x64x1x2_0_0_0_0 slices_S16384x64x2x2_S16384x64x1x2_0_0_1_0 shapeCasts_S16384x64x1x2_S16384x64x2 concatenates_S16384x64x1x2_S16384x64x1x2_S16384x64x2x2_d2 shapeCasts_S16384x64x2x2_S16384x256 bcast_S16384x64x2_S16384x64x1x2_0_1_3 slices_S1024_S128_128 shapeCasts_S128_S64x2 bcast_S64x2_S1x64x2_1_2 bcast_S1x64x2_S16384x64x2_0_1_2 x5 (val_main_v36 (F := Ideal) x0 x1 x2 x3 x4 x5) := rfl

/-- The bottleneck after the butterfly stage 2. -/
theorem s2_eq : val_main_v90 (F := Ideal) x0 x1 x2 x3 x4 x5
    = stageR (R := 16384) (nb := 32) (st := 4) (W := 256) (T := 128) (N := 1024) 256 shapeCasts_S16384x256_S16384x32x2x4 slices_S16384x32x2x4_S16384x32x1x4_0_0_0_0 slices_S16384x32x2x4_S16384x32x1x4_0_0_1_0 shapeCasts_S16384x32x1x4_S16384x32x4 concatenates_S16384x32x1x4_S16384x32x1x4_S16384x32x2x4_d2 shapeCasts_S16384x32x2x4_S16384x256 bcast_S16384x32x4_S16384x32x1x4_0_1_3 slices_S1024_S128_256 shapeCasts_S128_S32x4 bcast_S32x4_S1x32x4_1_2 bcast_S1x32x4_S16384x32x4_0_1_2 x5 (val_main_v63 (F := Ideal) x0 x1 x2 x3 x4 x5) := rfl

/-- The bottleneck after the butterfly stage 3. -/
theorem s3_eq : val_main_v117 (F := Ideal) x0 x1 x2 x3 x4 x5
    = stageR (R := 16384) (nb := 16) (st := 8) (W := 256) (T := 128) (N := 1024) 384 shapeCasts_S16384x256_S16384x16x2x8 slices_S16384x16x2x8_S16384x16x1x8_0_0_0_0 slices_S16384x16x2x8_S16384x16x1x8_0_0_1_0 shapeCasts_S16384x16x1x8_S16384x16x8 concatenates_S16384x16x1x8_S16384x16x1x8_S16384x16x2x8_d2 shapeCasts_S16384x16x2x8_S16384x256 bcast_S16384x16x8_S16384x16x1x8_0_1_3 slices_S1024_S128_384 shapeCasts_S128_S16x8 bcast_S16x8_S1x16x8_1_2 bcast_S1x16x8_S16384x16x8_0_1_2 x5 (val_main_v90 (F := Ideal) x0 x1 x2 x3 x4 x5) := rfl

/-- The bottleneck after the butterfly stage 4. -/
theorem s4_eq : val_main_v144 (F := Ideal) x0 x1 x2 x3 x4 x5
    = stageR (R := 16384) (nb := 8) (st := 16) (W := 256) (T := 128) (N := 1024) 512 shapeCasts_S16384x256_S16384x8x2x16 slices_S16384x8x2x16_S16384x8x1x16_0_0_0_0 slices_S16384x8x2x16_S16384x8x1x16_0_0_1_0 shapeCasts_S16384x8x1x16_S16384x8x16 concatenates_S16384x8x1x16_S16384x8x1x16_S16384x8x2x16_d2 shapeCasts_S16384x8x2x16_S16384x256 bcast_S16384x8x16_S16384x8x1x16_0_1_3 slices_S1024_S128_512 shapeCasts_S128_S8x16 bcast_S8x16_S1x8x16_1_2 bcast_S1x8x16_S16384x8x16_0_1_2 x5 (val_main_v117 (F := Ideal) x0 x1 x2 x3 x4 x5) := rfl

/-- The bottleneck after the butterfly stage 5. -/
theorem s5_eq : val_main_v171 (F := Ideal) x0 x1 x2 x3 x4 x5
    = stageR (R := 16384) (nb := 4) (st := 32) (W := 256) (T := 128) (N := 1024) 640 shapeCasts_S16384x256_S16384x4x2x32 slices_S16384x4x2x32_S16384x4x1x32_0_0_0_0 slices_S16384x4x2x32_S16384x4x1x32_0_0_1_0 shapeCasts_S16384x4x1x32_S16384x4x32 concatenates_S16384x4x1x32_S16384x4x1x32_S16384x4x2x32_d2 shapeCasts_S16384x4x2x32_S16384x256 bcast_S16384x4x32_S16384x4x1x32_0_1_3 slices_S1024_S128_640 shapeCasts_S128_S4x32 bcast_S4x32_S1x4x32_1_2 bcast_S1x4x32_S16384x4x32_0_1_2 x5 (val_main_v144 (F := Ideal) x0 x1 x2 x3 x4 x5) := rfl

/-- The bottleneck after the butterfly stage 6. -/
theorem s6_eq : val_main_v198 (F := Ideal) x0 x1 x2 x3 x4 x5
    = stageR (R := 16384) (nb := 2) (st := 64) (W := 256) (T := 128) (N := 1024) 768 shapeCasts_S16384x256_S16384x2x2x64 slices_S16384x2x2x64_S16384x2x1x64_0_0_0_0 slices_S16384x2x2x64_S16384x2x1x64_0_0_1_0 shapeCasts_S16384x2x1x64_S16384x2x64 concatenates_S16384x2x1x64_S16384x2x1x64_S16384x2x2x64_d2 shapeCasts_S16384x2x2x64_S16384x256 bcast_S16384x2x64_S16384x2x1x64_0_1_3 slices_S1024_S128_768 shapeCasts_S128_S2x64 bcast_S2x64_S1x2x64_1_2 bcast_S1x2x64_S16384x2x64_0_1_2 x5 (val_main_v171 (F := Ideal) x0 x1 x2 x3 x4 x5) := rfl

/-- The bottleneck after the butterfly stage 7. -/
theorem s7_eq : val_main_v225 (F := Ideal) x0 x1 x2 x3 x4 x5
    = stageR (R := 16384) (nb := 1) (st := 128) (W := 256) (T := 128) (N := 1024) 896 shapeCasts_S16384x256_S16384x1x2x128 slices_S16384x1x2x128_S16384x1x1x128_0_0_0_0 slices_S16384x1x2x128_S16384x1x1x128_0_0_1_0 shapeCasts_S16384x1x1x128_S16384x1x128 concatenates_S16384x1x1x128_S16384x1x1x128_S16384x1x2x128_d2 shapeCasts_S16384x1x2x128_S16384x256 bcast_S16384x1x128_S16384x1x1x128_0_1_3 slices_S1024_S128_896 shapeCasts_S128_S1x128 bcast_S1x128_S1x1x128_1_2 bcast_S1x1x128_S16384x1x128_0_1_2 x5 (val_main_v198 (F := Ideal) x0 x1 x2 x3 x4 x5) := rfl

/-- The third hidden layer: max(s7 · dw0 + db0, 0). -/
theorem h3_eq : val_main_v230 (F := Ideal) x0 x1 x2 x3 x4 x5 x6 x7
    = reluR (R := 16384) (N := 1024) bcast_S_S16384x1024 (affR (φ₁ := .f32) (φ₂ := .f32) (R := 16384) (K := 256) (N := 1024) bcast_S1024_S1x1024_1 bcast_S1x1024_S16384x1024_0_1 (val_main_v225 (F := Ideal) x0 x1 x2 x3 x4 x5) x6 x7) := rfl

/-- The output: h3 · ow + ob. -/
theorem out_eq : val_main_v234 (F := Ideal) x0 x1 x2 x3 x4 x5 x6 x7 x8 x9
    = affR (φ₁ := .f32) (φ₂ := .f32) (R := 16384) (K := 1024) (N := 4096) bcast_S4096_S1x4096_1 bcast_S1x4096_S16384x4096_0_1 (val_main_v230 (F := Ideal) x0 x1 x2 x3 x4 x5 x6 x7) x8 x9 := rfl

end Cert.ReferenceIdeal.Net

end
-- ==== Proof.Bridge.lean ====
/-
  Row for row, the kernel's block value is the reference's value: if the block's input rows are the rows e of the
  reference's input, and the weights, biases and rotation tables agree entry by entry, then every layer of the block
  holds the rows e of the reference's layer — the affine layers because a product's row depends on that row alone,
  the butterfly stages because a rotation pairs entries of one row.
-/
import proofs.«166147_j45853070852455_1_alg».proof.Proof.KernelNet
import proofs.«166147_j45853070852455_1_alg».proof.Proof.RefNet

noncomputable section

namespace Cert.Bridge

open Idealize.ShloMosaic Idealize.ShloMosaic.ValueIdx Cert.Bfly Cert.Dense
open Cert.KernelIdeal Cert.KernelIdeal.Gen Cert.KernelIdeal.Launch Cert.KernelIdeal.Net

variable (e : Fin 256 → Fin 16384)
  (x0 : Vec Ideal S256x4096 .f32) (x1 : Vec Ideal S4096x1024 .bf16) (x2 : Vec Ideal S1x1024 .f32) (x3 : Vec Ideal S1024x256 .bf16) (x4 : Vec Ideal S1x256 .f32) (x5 x6 : Vec Ideal S8x128 .f32) (x7 : Vec Ideal S256x1024 .bf16) (x8 : Vec Ideal S1x1024 .f32) (x9 : Vec Ideal S1024x4096 .bf16) (x10 : Vec Ideal S1x4096 .f32)
  (X : FVec Ideal Cert.ReferenceIdeal.S16384x4096 .f32) (W0 : FVec Ideal Cert.ReferenceIdeal.S4096x1024 .f32) (B0 : FVec Ideal Cert.ReferenceIdeal.S1024 .f32) (W1 : FVec Ideal Cert.ReferenceIdeal.S1024x256 .f32) (B1 : FVec Ideal Cert.ReferenceIdeal.S256 .f32) (Θ : FVec Ideal Cert.ReferenceIdeal.S1024 .f32) (W2 : FVec Ideal Cert.ReferenceIdeal.S256x1024 .f32) (B2 : FVec Ideal Cert.ReferenceIdeal.S1024 .f32) (W3 : FVec Ideal Cert.ReferenceIdeal.S1024x4096 .f32) (B3 : FVec Ideal Cert.ReferenceIdeal.S4096 .f32)

/-- A shape cast to the same shape of a load that is the whole block reads the block. -/
theorem cast_ld {s : Shape} {α : Type} (v w : s.Idx → α) (h : s.ShapeCasts s) (hv : v = w) (i : s.Idx) :
    shapeCast s v h i = w i := by rw [shapeCast_self, hv]

theorem rows_kout
    (hx : ∀ r k, x0 (ix2 r k) = X (ix2 (e r) k))
    (hw0 : ∀ k n, x1 (ix2 k n) = W0 (ix2 k n)) (hb0 : ∀ n, x2 (ix2 (0 : Fin 1) n) = B0 (ix1 n))
    (hw1 : ∀ k n, x3 (ix2 k n) = W1 (ix2 k n)) (hb1 : ∀ n, x4 (ix2 (0 : Fin 1) n) = B1 (ix1 n))
    (hcos : ∀ (s : Fin 8) (j : Fin 128) (h : 128 * s.val + j.val < 1024), x5 (ix2 s j) = FloatOps.hostUnary (F := Ideal) (φ := .f32) .cos (Θ (ix1 ⟨128 * s.val + j.val, h⟩)))
    (hsin : ∀ (s : Fin 8) (j : Fin 128) (h : 128 * s.val + j.val < 1024), x6 (ix2 s j) = FloatOps.hostUnary (F := Ideal) (φ := .f32) .sin (Θ (ix1 ⟨128 * s.val + j.val, h⟩)))
    (hw2 : ∀ k n, x7 (ix2 k n) = W2 (ix2 k n)) (hb2 : ∀ n, x8 (ix2 (0 : Fin 1) n) = B2 (ix1 n))
    (hw3 : ∀ k n, x9 (ix2 k n) = W3 (ix2 k n)) (hb3 : ∀ n, x10 (ix2 (0 : Fin 1) n) = B3 (ix1 n)) :
    RowsOf e (kout x0 x1 x2 x3 x4 x5 x6 x7 x8 x9 x10) (Cert.ReferenceIdeal.Read.val_main_v234 (F := Ideal) X W0 B0 W1 B1 Θ W2 B2 W3 B3) := by
  have h1 : RowsOf e (kh1 x0 x1 x2) (Cert.ReferenceIdeal.Read.val_main_v4 (F := Ideal) X W0 B0) := by
    rw [Cert.ReferenceIdeal.Net.h1_eq]; unfold kh1
    exact relu_rows e _ _ _ (aff_rows e _ _ _ _ _ _ X W0 B0
      (fun r k => by rw [ld_whole_0]; exact hx r k)
      (fun k n => (cast_ld _ _ _ (ld_whole_1 x1) _).trans (hw0 k n))
      (fun n => (cast_ld _ _ _ (ld_whole_2 x2) _).trans (hb0 n)))
  have h2 : RowsOf e (kh2 x0 x1 x2 x3 x4) (Cert.ReferenceIdeal.Read.val_main_v9 (F := Ideal) X W0 B0 W1 B1) := by
    rw [Cert.ReferenceIdeal.Net.h2_eq]; unfold kh2
    exact relu_rows e _ _ _ (aff_rows e _ _ _ _ _ _ _ W1 B1
      (fun r k => h1 r k)
      (fun k n => (cast_ld _ _ _ (ld_whole_3 x3) _).trans (hw1 k n))
      (fun n => (cast_ld _ _ _ (ld_whole_4 x4) _).trans (hb1 n)))
  have hs0 : RowsOf e (ks0 x0 x1 x2 x3 x4 x5 x6) (Cert.ReferenceIdeal.Read.val_main_v36 (F := Ideal) X W0 B0 W1 B1 Θ) := by
    rw [Cert.ReferenceIdeal.Net.s0_eq]; unfold ks0
    exact stage_rows (by norm_num) (by norm_num) (by norm_num) e _ _ _ _ _ _ _ _ _ _ _ _ _ _ _ _ _ _ _ _ _ _ (View.ld x5 r0_5) (View.ld x6 r0_5) Θ
      (fun j hlt => (ld_row0 x5 j).trans ((hcos ⟨0, by omega⟩ j (by show 128 * 0 + j.val < 1024; omega)).trans
        (congrArg (fun i => FloatOps.hostUnary (F := Ideal) (φ := .f32) .cos (Θ (ix1 i))) (Fin.ext (by show 128 * 0 + j.val = 0 + j.val; omega)))))
      (fun j hlt => (ld_row0 x6 j).trans ((hsin ⟨0, by omega⟩ j (by show 128 * 0 + j.val < 1024; omega)).trans
        (congrArg (fun i => FloatOps.hostUnary (F := Ideal) (φ := .f32) .sin (Θ (ix1 i))) (Fin.ext (by show 128 * 0 + j.val = 0 + j.val; omega)))))
      _ _ h2
  have hs1 : RowsOf e (ks1 x0 x1 x2 x3 x4 x5 x6) (Cert.ReferenceIdeal.Read.val_main_v63 (F := Ideal) X W0 B0 W1 B1 Θ) := by
    rw [Cert.ReferenceIdeal.Net.s1_eq]; unfold ks1
    exact stage_rows (by norm_num) (by norm_num) (by norm_num) e _ _ _ _ _ _ _ _ _ _ _ _ _ _ _ _ _ _ _ _ _ _ (View.ld x5 r0_6) (View.ld x6 r0_6) Θ
      (fun j hlt => (ld_row1 x5 j).trans ((hcos ⟨1, by omega⟩ j (by show 128 * 1 + j.val < 1024; omega)).trans
        (congrArg (fun i => FloatOps.hostUnary (F := Ideal) (φ := .f32) .cos (Θ (ix1 i))) (Fin.ext (by show 128 * 1 + j.val = 128 + j.val; omega)))))
      (fun j hlt => (ld_row1 x6 j).trans ((hsin ⟨1, by omega⟩ j (by show 128 * 1 + j.val < 1024; omega)).trans
        (congrArg (fun i => FloatOps.hostUnary (F := Ideal) (φ := .f32) .sin (Θ (ix1 i))) (Fin.ext (by show 128 * 1 + j.val = 128 + j.val; omega)))))
      _ _ hs0
  have hs2 : RowsOf e (ks2 x0 x1 x2 x3 x4 x5 x6) (Cert.ReferenceIdeal.Read.val_main_v90 (F := Ideal) X W0 B0 W1 B1 Θ) := by
    rw [Cert.ReferenceIdeal.Net.s2_eq]; unfold ks2
    exact stage_rows (by norm_num) (by norm_num) (by norm_num) e _ _ _ _ _ _ _ _ _ _ _ _ _ _ _ _ _ _ _ _ _ _ (View.ld x5 r0_7) (View.ld x6 r0_7) Θ
      (fun j hlt => (ld_row2 x5 j).trans ((hcos ⟨2, by omega⟩ j (by show 128 * 2 + j.val < 1024; omega)).trans
        (congrArg (fun i => FloatOps.hostUnary (F := Ideal) (φ := .f32) .cos (Θ (ix1 i))) (Fin.ext (by show 128 * 2 + j.val = 256 + j.val; omega)))))
      (fun j hlt => (ld_row2 x6 j).trans ((hsin ⟨2, by omega⟩ j (by show 128 * 2 + j.val < 1024; omega)).trans
        (congrArg (fun i => FloatOps.hostUnary (F := Ideal) (φ := .f32) .sin (Θ (ix1 i))) (Fin.ext (by show 128 * 2 + j.val = 256 + j.val; omega)))))
      _ _ hs1
  have hs3 : RowsOf e (ks3 x0 x1 x2 x3 x4 x5 x6) (Cert.ReferenceIdeal.Read.val_main_v117 (F := Ideal) X W0 B0 W1 B1 Θ) := by
    rw [Cert.ReferenceIdeal.Net.s3_eq]; unfold ks3
    exact stage_rows (by norm_num) (by norm_num) (by norm_num) e _ _ _ _ _ _ _ _ _ _ _ _ _ _ _ _ _ _ _ _ _ _ (View.ld x5 r0_8) (View.ld x6 r0_8) Θ
      (fun j hlt => (ld_row3 x5 j).trans ((hcos ⟨3, by omega⟩ j (by show 128 * 3 + j.val < 1024; omega)).trans
        (congrArg (fun i => FloatOps.hostUnary (F := Ideal) (φ := .f32) .cos (Θ (ix1 i))) (Fin.ext (by show 128 * 3 + j.val = 384 + j.val; omega)))))
      (fun j hlt => (ld_row3 x6 j).trans ((hsin ⟨3, by omega⟩ j (by show 128 * 3 + j.val < 1024; omega)).trans
        (congrArg (fun i => FloatOps.hostUnary (F := Ideal) (φ := .f32) .sin (Θ (ix1 i))) (Fin.ext (by show 128 * 3 + j.val = 384 + j.val; omega)))))
      _ _ hs2
  have hs4 : RowsOf e (ks4 x0 x1 x2 x3 x4 x5 x6) (Cert.ReferenceIdeal.Read.val_main_v144 (F := Ideal) X W0 B0 W1 B1 Θ) := by
    rw [Cert.ReferenceIdeal.Net.s4_eq]; unfold ks4
    exact stage_rows (by norm_num) (by norm_num) (by norm_num) e _ _ _ _ _ _ _ _ _ _ _ _ _ _ _ _ _ _ _ _ _ _ (View.ld x5 r0_9) (View.ld x6 r0_9) Θ
      (fun j hlt => (ld_row4 x5 j).trans ((hcos ⟨4, by omega⟩ j (by show 128 * 4 + j.val < 1024; omega)).trans
        (congrArg (fun i => FloatOps.hostUnary (F := Ideal) (φ := .f32) .cos (Θ (ix1 i))) (Fin.ext (by show 128 * 4 + j.val = 512 + j.val; omega)))))
      (fun j hlt => (ld_row4 x6 j).trans ((hsin ⟨4, by omega⟩ j (by show 128 * 4 + j.val < 1024; omega)).trans
        (congrArg (fun i => FloatOps.hostUnary (F := Ideal) (φ := .f32) .sin (Θ (ix1 i))) (Fin.ext (by show 128 * 4 + j.val = 512 + j.val; omega)))))
      _ _ hs3
  have hs5 : RowsOf e (ks5 x0 x1 x2 x3 x4 x5 x6) (Cert.ReferenceIdeal.Read.val_main_v171 (F := Ideal) X W0 B0 W1 B1 Θ) := by
    rw [Cert.ReferenceIdeal.Net.s5_eq]; unfold ks5
    exact stage_rows (by norm_num) (by norm_num) (by norm_num) e _ _ _ _ _ _ _ _ _ _ _ _ _ _ _ _ _ _ _ _ _ _ (View.ld x5 r0_10) (View.ld x6 r0_10) Θ
      (fun j hlt => (ld_row5 x5 j).trans ((hcos ⟨5, by omega⟩ j (by show 128 * 5 + j.val < 1024; omega)).trans
        (congrArg (fun i => FloatOps.hostUnary (F := Ideal) (φ := .f32) .cos (Θ (ix1 i))) (Fin.ext (by show 128 * 5 + j.val = 640 + j.val; omega)))))
      (fun j hlt => (ld_row5 x6 j).trans ((hsin ⟨5, by omega⟩ j (by show 128 * 5 + j.val < 1024; omega)).trans
        (congrArg (fun i => FloatOps.hostUnary (F := Ideal) (φ := .f32) .sin (Θ (ix1 i))) (Fin.ext (by show 128 * 5 + j.val = 640 + j.val; omega)))))
      _ _ hs4
  have hs6 : RowsOf e (ks6 x0 x1 x2 x3 x4 x5 x6) (Cert.ReferenceIdeal.Read.val_main_v198 (F := Ideal) X W0 B0 W1 B1 Θ) := by
    rw [Cert.ReferenceIdeal.Net.s6_eq]; unfold ks6
    exact stage_rows (by norm_num) (by norm_num) (by norm_num) e _ _ _ _ _ _ _ _ _ _ _ _ _ _ _ _ _ _ _ _ _ _ (View.ld x5 r0_11) (View.ld x6 r0_11) Θ
      (fun j hlt => (ld_row6 x5 j).trans ((hcos ⟨6, by omega⟩ j (by show 128 * 6 + j.val < 1024; omega)).trans
        (congrArg (fun i => FloatOps.hostUnary (F := Ideal) (φ := .f32) .cos (Θ (ix1 i))) (Fin.ext (by show 128 * 6 + j.val = 768 + j.val; omega)))))
      (fun j hlt => (ld_row6 x6 j).trans ((hsin ⟨6, by omega⟩ j (by show 128 * 6 + j.val < 1024; omega)).trans
        (congrArg (fun i => FloatOps.hostUnary (F := Ideal) (φ := .f32) .sin (Θ (ix1 i))) (Fin.ext (by show 128 * 6 + j.val = 768 + j.val; omega)))))
      _ _ hs5
  have hs7 : RowsOf e (ks7 x0 x1 x2 x3 x4 x5 x6) (Cert.ReferenceIdeal.Read.val_main_v225 (F := Ideal) X W0 B0 W1 B1 Θ) := by
    rw [Cert.ReferenceIdeal.Net.s7_eq]; unfold ks7
    exact stage_rows (by norm_num) (by norm_num) (by norm_num) e _ _ _ _ _ _ _ _ _ _ _ _ _ _ _ _ _ _ _ _ _ _ (View.ld x5 r0_12) (View.ld x6 r0_12) Θ
      (fun j hlt => (ld_row7 x5 j).trans ((hcos ⟨7, by omega⟩ j (by show 128 * 7 + j.val < 1024; omega)).trans
        (congrArg (fun i => FloatOps.hostUnary (F := Ideal) (φ := .f32) .cos (Θ (ix1 i))) (Fin.ext (by show 128 * 7 + j.val = 896 + j.val; omega)))))
      (fun j hlt => (ld_row7 x6 j).trans ((hsin ⟨7, by omega⟩ j (by show 128 * 7 + j.val < 1024; omega)).trans
        (congrArg (fun i => FloatOps.hostUnary (F := Ideal) (φ := .f32) .sin (Θ (ix1 i))) (Fin.ext (by show 128 * 7 + j.val = 896 + j.val; omega)))))
      _ _ hs6
  have h3 : RowsOf e (kh3 x0 x1 x2 x3 x4 x5 x6 x7 x8) (Cert.ReferenceIdeal.Read.val_main_v230 (F := Ideal) X W0 B0 W1 B1 Θ W2 B2) := by
    rw [Cert.ReferenceIdeal.Net.h3_eq]; unfold kh3
    exact relu_rows e _ _ _ (aff_rows e _ _ _ _ _ _ _ W2 B2
      (fun r k => hs7 r k)
      (fun k n => (cast_ld _ _ _ (ld_whole_13 x7) _).trans (hw2 k n))
      (fun n => (cast_ld _ _ _ (ld_whole_2 x8) _).trans (hb2 n)))
  rw [Cert.ReferenceIdeal.Net.out_eq]; unfold kout
  exact aff_rows e _ _ _ _ _ _ _ W3 B3
    (fun r k => h3 r k)
    (fun k n => (cast_ld _ _ _ (ld_whole_14 x9) _).trans (hw3 k n))
    (fun n => (cast_ld _ _ _ (ld_whole_15 x10) _).trans (hb3 n))

end Cert.Bridge

end
-- ==== Proof.lean ====
/-
  The kernel computes, for each block of 256 rows of x, a four-layer perceptron with an eight-stage butterfly of plane
  rotations on the 256-wide bottleneck:  out = max(s₇ · dw0 + db0, 0) · ow + ob,  s₇ the bottleneck
  max(max(x · w0 + b0, 0) · w1 + b1, 0) after the stages 0 … 7, stage s rotating the entries 2^s apart of every row by
  the angles theta[128 s …]. The reference computes the same layers on all 16384 rows at once. On the extended reals
  every step of a layer reads, for a row of its result, that row of its operand only: a product's row is the finite sum
  over the contracted coordinate, a bias is broadcast over the rows, a rotation pairs two entries of one row. So the
  block of rows 256 t … 256 t + 255 of the reference's result is the kernel's block value at grid point t, layer by layer
  (Bridge), the 64 blocks tile the result (KernelLaunch), and the two programs end with equal results. The kernel's
  weights are the arguments rounded to bf16, the identity on the extended reals, and its cosines and sines are the
  host's, of the same angles; no law of arithmetic beyond that is used, so the precondition is never opened.
-/
import proofs.«166147_j45853070852455_1_alg».proof.Defs
import proofs.«166147_j45853070852455_1_alg».proof.Proof.Gen.Kernel
import proofs.«166147_j45853070852455_1_alg».proof.Proof.Gen.Kernel.Skeleton
import proofs.«166147_j45853070852455_1_alg».proof.Proof.Gen.Kernel.Launch
import proofs.«166147_j45853070852455_1_alg».proof.Proof.Gen.Kernel.Points
import proofs.«166147_j45853070852455_1_alg».proof.Proof.Gen.Kernel.Frame
import proofs.«166147_j45853070852455_1_alg».proof.Proof.Gen.KernelIdeal
import proofs.«166147_j45853070852455_1_alg».proof.Proof.Gen.KernelIdeal.Skeleton
import proofs.«166147_j45853070852455_1_alg».proof.Proof.Gen.KernelIdeal.Launch
import proofs.«166147_j45853070852455_1_alg».proof.Proof.Gen.KernelIdeal.Points
import proofs.«166147_j45853070852455_1_alg».proof.Proof.Gen.KernelIdeal.Frame
import proofs.«166147_j45853070852455_1_alg».proof.Proof.Gen.ReferenceIdeal
import proofs.«166147_j45853070852455_1_alg».proof.Proof.Gen.Pre_finite_inputs
import proofs.«166147_j45853070852455_1_alg».proof.Proof.Gen.KernelIdeal.Value
import proofs.«166147_j45853070852455_1_alg».proof.Proof.KernelLaunch
import proofs.«166147_j45853070852455_1_alg».proof.Proof.RefValue
import proofs.«166147_j45853070852455_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- Point t's rows: row r of the block is row 256 t + r of the array. -/
def rowAt (t : Fin Cert.KernelIdeal.cfg0.N) (r : Fin 256) : Fin 16384 :=
  ⟨256 * t.val + r.val, by have := Cert.KernelIdeal.Launch.point_lt t; have := r.isLt; omega⟩

/-- Both programs end with the reference's function of the arguments: the kernel block by block, by the row-for-row
    agreement of the layers at the blocks the launch reads off the argument arrays. -/
theorem algebraic : Cert.algebraic_KernelIdeal_ReferenceIdeal := by
  intro m ρ m' ρ' _ hagree
  refine ⟨fun c => Cert.ReferenceIdeal.Read.val_main_v234 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine Cert.KernelIdeal.Launch.run m ρ _ fun c t r j h => ?_
    rw [Cert.KernelIdeal.Net.kpay_eq]
    exact Cert.Bridge.rows_kout (rowAt t) _ _ _ _ _ _ _ _ _ _ _ _ _ _ _ _ _ _ _ _ _
      (fun r k => Cert.KernelIdeal.Launch.xblk_apply m c t r k _)
      (fun k n => Cert.KernelIdeal.Launch.w0blk_apply m c t k n) (fun n => Cert.KernelIdeal.Launch.b0blk_apply m c t n)
      (fun k n => Cert.KernelIdeal.Launch.w1blk_apply m c t k n) (fun n => Cert.KernelIdeal.Launch.b1blk_apply m c t n)
      (fun s j h => Cert.KernelIdeal.Launch.cosblk_apply m c t s j h) (fun s j h => Cert.KernelIdeal.Launch.sinblk_apply m c t s j h)
      (fun k n => Cert.KernelIdeal.Launch.w2blk_apply m c t k n) (fun n => Cert.KernelIdeal.Launch.b2blk_apply m c t n)
      (fun k n => Cert.KernelIdeal.Launch.w3blk_apply m c t k n) (fun n => Cert.KernelIdeal.Launch.b3blk_apply m c t n) r j
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
